-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)) →
    ∃ (v0 : (c : Dev Cert.KernelIdeal.nD) → Buf (Elt Ideal) ((c.tc : Thread Cert.KernelIdeal.nD Cert.KernelIdeal.τ).loc Cert.KernelIdeal.main_v21)) (v1 : (c : Dev Cert.KernelIdeal.nD) → Buf (Elt Ideal) ((c.tc : Thread Cert.KernelIdeal.nD Cert.KernelIdeal.τ).loc Cert.KernelIdeal.main_v21)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v21) = v0 c
          ∧ r.2.mem ((c.tc : Thread Cert.KernelIdeal.nD Cert.KernelIdeal.τ).loc Cert.KernelIdeal.main_v21) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v46) = v0 c
          ∧ r.2.mem ((c.tc : Thread Cert.ReferenceIdeal.nD Cert.ReferenceIdeal.τ).loc Cert.ReferenceIdeal.main_v46) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32768x512 : Shape := ⟨2, ![32768, 512]⟩
abbrev S32768x1024 : Shape := ⟨2, ![32768, 1024]⟩
abbrev S512x1024 : Shape := ⟨2, ![512, 1024]⟩
abbrev S1024 : Shape := ⟨1, ![1024]⟩
abbrev S2048x1024 : Shape := ⟨2, ![2048, 1024]⟩
abbrev S_ : Shape := ⟨0, ![]⟩

class Facts : Prop where
  bcast_S_S32768x512 : S_.BroadcastsInDim S32768x512 (![] : Fin 0 → Fin S32768x512.rank)
  reducesTo_S32768x512_S_d0_1 : S32768x512.ReducesTo [0, 1] S_
  h_S_ : 0 < S_.numel
  bcast_S_S32768x1024 : S_.BroadcastsInDim S32768x1024 (![] : Fin 0 → Fin S32768x1024.rank)
  reducesTo_S32768x1024_S_d0_1 : S32768x1024.ReducesTo [0, 1] S_
  bcast_S_S512x1024 : S_.BroadcastsInDim S512x1024 (![] : Fin 0 → Fin S512x1024.rank)
  reducesTo_S512x1024_S_d0_1 : S512x1024.ReducesTo [0, 1] S_
  bcast_S_S1024 : S_.BroadcastsInDim S1024 (![] : Fin 0 → Fin S1024.rank)
  reducesTo_S1024_S_d0 : S1024.ReducesTo [0] S_
  bcast_S_S2048x1024 : S_.BroadcastsInDim S2048x1024 (![] : Fin 0 → Fin S2048x1024.rank)
  reducesTo_S2048x1024_S_d0_1 : S2048x1024.ReducesTo [0, 1] S_

variable [Facts]

def fn_part4 {F : FTy → Type} [FloatOps F] (main_arg14 : FVec F S1024 .f32) (main_v63 : IVec S_ 1) (main_v67 : IVec S_ 1) : IVec S_ 1 :=
  let main_v68 : IVec S_ 1 := andi main_v63 main_v67
  let main_v69 : FVec F S1024 .f32 := Host.absf main_arg14
  let main_cst_26 : FVec F S_ .f32 := constant S_ .f32 0x7F800000#32
  let main_v70 : FVec F S1024 .f32 := broadcastInDim S1024 ![] bcast_S_S1024 main_cst_26
  let main_v71 : IVec S1024 1 := cmpf .olt main_v69 main_v70
  let main_c_27 : IVec S_ 1 := constantI S_ 1 1#1
  let main_v72 : IVec S_ 1 := (fun x v => Host.reduce IntOp.andi x v reducesTo_S1024_S_d0 h_S_) main_v71 main_c_27
  let main_v73 : IVec S_ 1 := andi main_v68 main_v72
  main_v73

def fn_part3 {F : FTy → Type} [FloatOps F] (main_arg11 : FVec F S512x1024 .f32) (main_arg12 : FVec F S1024 .f32) (main_arg13 : FVec F S2048x1024 .f32) (main_arg14 : FVec F S1024 .f32) (main_v48 : IVec S_ 1) (main_v49 : FVec F S1024 .f32) (main_v50 : FVec F S1024 .f32) : IVec S_ 1 :=
  let main_v51 : IVec S1024 1 := cmpf .olt main_v49 main_v50
  let main_c_19 : IVec S_ 1 := constantI S_ 1 1#1
  let main_v52 : IVec S_ 1 := (fun x v => Host.reduce IntOp.andi x v reducesTo_S1024_S_d0 h_S_) main_v51 main_c_19
  let main_v53 : IVec S_ 1 := andi main_v48 main_v52
  let main_v54 : FVec F S512x1024 .f32 := Host.absf main_arg11
  let main_cst_20 : FVec F S_ .f32 := constant S_ .f32 0x7F800000#32
  let main_v55 : FVec F S512x1024 .f32 := broadcastInDim S512x1024 ![] bcast_S_S512x1024 main_cst_20
  let main_v56 : IVec S512x1024 1 := cmpf .olt main_v54 main_v55
  let main_c_21 : IVec S_ 1 := constantI S_ 1 1#1
  let main_v57 : IVec S_ 1 := (fun x v => Host.reduce IntOp.andi x v reducesTo_S512x1024_S_d0_1 h_S_) main_v56 main_c_21
  let main_v58 : IVec S_ 1 := andi main_v53 main_v57
  let main_v59 : FVec F S1024 .f32 := Host.absf main_arg12
  let main_cst_22 : FVec F S_ .f32 := constant S_ .f32 0x7F800000#32
  let main_v60 : FVec F S1024 .f32 := broadcastInDim S1024 ![] bcast_S_S1024 main_cst_22
  let main_v61 : IVec S1024 1 := cmpf .olt main_v59 main_v60
  let main_c_23 : IVec S_ 1 := constantI S_ 1 1#1
  let main_v62 : IVec S_ 1 := (fun x v => Host.reduce IntOp.andi x v reducesTo_S1024_S_d0 h_S_) main_v61 main_c_23
  let main_v63 : IVec S_ 1 := andi main_v58 main_v62
  let main_v64 : FVec F S2048x1024 .f32 := Host.absf main_arg13
  let main_cst_24 : FVec F S_ .f32 := constant S_ .f32 0x7F800000#32
  let main_v65 : FVec F S2048x1024 .f32 := broadcastInDim S2048x1024 ![] bcast_S_S2048x1024 main_cst_24
  let main_v66 : IVec S2048x1024 1 := cmpf .olt main_v64 main_v65
  let main_c_25 : IVec S_ 1 := constantI S_ 1 1#1
  let main_v67 : IVec S_ 1 := (fun x v => Host.reduce IntOp.andi x v reducesTo_S2048x1024_S_d0_1 h_S_) main_v66 main_c_25
  fn_part4 (F := F) main_arg14 main_v63 main_v67

def fn_part2 {F : FTy → Type} [FloatOps F] (main_arg7 : FVec F S512x1024 .f32) (main_arg8 : FVec F S1024 .f32) (main_arg9 : FVec F S2048x1024 .f32) (main_arg10 : FVec F S1024 .f32) (main_arg11 : FVec F S512x1024 .f32) (main_arg12 : FVec F S1024 .f32) (main_arg13 : FVec F S2048x1024 .f32) (main_arg14 : FVec F S1024 .f32) (main_v33 : IVec S_ 1) : IVec S_ 1 :=
  let main_v34 : FVec F S512x1024 .f32 := Host.absf main_arg7
  let main_cst_12 : FVec F S_ .f32 := constant S_ .f32 0x7F800000#32
  let main_v35 : FVec F S512x1024 .f32 := broadcastInDim S512x1024 ![] bcast_S_S512x1024 main_cst_12
  let main_v36 : IVec S512x1024 1 := cmpf .olt main_v34 main_v35
  let main_c_13 : IVec S_ 1 := constantI S_ 1 1#1
  let main_v37 : IVec S_ 1 := (fun x v => Host.reduce IntOp.andi x v reducesTo_S512x1024_S_d0_1 h_S_) main_v36 main_c_13
  let main_v38 : IVec S_ 1 := andi main_v33 main_v37
  let main_v39 : FVec F S1024 .f32 := Host.absf main_arg8
  let main_cst_14 : FVec F S_ .f32 := constant S_ .f32 0x7F800000#32
  let main_v40 : FVec F S1024 .f32 := broadcastInDim S1024 ![] bcast_S_S1024 main_cst_14
  let main_v41 : IVec S1024 1 := cmpf .olt main_v39 main_v40
  let main_c_15 : IVec S_ 1 := constantI S_ 1 1#1
  let main_v42 : IVec S_ 1 := (fun x v => Host.reduce IntOp.andi x v reducesTo_S1024_S_d0 h_S_) main_v41 main_c_15
  let main_v43 : IVec S_ 1 := andi main_v38 main_v42
  let main_v44 : FVec F S2048x1024 .f32 := Host.absf main_arg9
  let main_cst_16 : FVec F S_ .f32 := constant S_ .f32 0x7F800000#32
  let main_v45 : FVec F S2048x1024 .f32 := broadcastInDim S2048x1024 ![] bcast_S_S2048x1024 main_cst_16
  let main_v46 : IVec S2048x1024 1 := cmpf .olt main_v44 main_v45
  let main_c_17 : IVec S_ 1 := constantI S_ 1 1#1
  let main_v47 : IVec S_ 1 := (fun x v => Host.reduce IntOp.andi x v reducesTo_S2048x1024_S_d0_1 h_S_) main_v46 main_c_17
  let main_v48 : IVec S_ 1 := andi main_v43 main_v47
  let main_v49 : FVec F S1024 .f32 := Host.absf main_arg10
  let main_cst_18 : FVec F S_ .f32 := constant S_ .f32 0x7F800000#32
  let main_v50 : FVec F S1024 .f32 := broadcastInDim S1024 ![] bcast_S_S1024 main_cst_18
  fn_part3 (F := F) main_arg11 main_arg12 main_arg13 main_arg14 main_v48 main_v49 main_v50

def fn_part1 {F : FTy → Type} [FloatOps F] (main_arg4 : FVec F S1024 .f32) (main_arg5 : FVec F S2048x1024 .f32) (main_arg6 : FVec F S1024 .f32) (main_arg7 : FVec F S512x1024 .f32) (main_arg8 : FVec F S1024 .f32) (main_arg9 : FVec F S2048x1024 .f32) (main_arg10 : FVec F S1024 .f32) (main_arg11 : FVec F S512x1024 .f32) (main_arg12 : FVec F S1024 .f32) (main_arg13 : FVec F S2048x1024 .f32) (main_arg14 : FVec F S1024 .f32) (main_v13 : IVec S_ 1) (main_v16 : IVec S512x1024 1) : IVec S_ 1 :=
  let main_c_5 : IVec S_ 1 := constantI S_ 1 1#1
  let main_v17 : IVec S_ 1 := (fun x v => Host.reduce IntOp.andi x v reducesTo_S512x1024_S_d0_1 h_S_) main_v16 main_c_5
  let main_v18 : IVec S_ 1 := andi main_v13 main_v17
  let main_v19 : FVec F S1024 .f32 := Host.absf main_arg4
  let main_cst_6 : FVec F S_ .f32 := constant S_ .f32 0x7F800000#32
  let main_v20 : FVec F S1024 .f32 := broadcastInDim S1024 ![] bcast_S_S1024 main_cst_6
  let main_v21 : IVec S1024 1 := cmpf .olt main_v19 main_v20
  let main_c_7 : IVec S_ 1 := constantI S_ 1 1#1
  let main_v22 : IVec S_ 1 := (fun x v => Host.reduce IntOp.andi x v reducesTo_S1024_S_d0 h_S_) main_v21 main_c_7
  let main_v23 : IVec S_ 1 := andi main_v18 main_v22
  let main_v24 : FVec F S2048x1024 .f32 := Host.absf main_arg5
  let main_cst_8 : FVec F S_ .f32 := constant S_ .f32 0x7F800000#32
  let main_v25 : FVec F S2048x1024 .f32 := broadcastInDim S2048x1024 ![] bcast_S_S2048x1024 main_cst_8
  let main_v26 : IVec S2048x1024 1 := cmpf .olt main_v24 main_v25
  let main_c_9 : IVec S_ 1 := constantI S_ 1 1#1
  let main_v27 : IVec S_ 1 := (fun x v => Host.reduce IntOp.andi x v reducesTo_S2048x1024_S_d0_1 h_S_) main_v26 main_c_9
  let main_v28 : IVec S_ 1 := andi main_v23 main_v27
  let main_v29 : FVec F S1024 .f32 := Host.absf main_arg6
  let main_cst_10 : FVec F S_ .f32 := constant S_ .f32 0x7F800000#32
  let main_v30 : FVec F S1024 .f32 := broadcastInDim S1024 ![] bcast_S_S1024 main_cst_10
  let main_v31 : IVec S1024 1 := cmpf .olt main_v29 main_v30
  let main_c_11 : IVec S_ 1 := constantI S_ 1 1#1
  let main_v32 : IVec S_ 1 := (fun x v => Host.reduce IntOp.andi x v reducesTo_S1024_S_d0 h_S_) main_v31 main_c_11
  let main_v33 : IVec S_ 1 := andi main_v28 main_v32
  fn_part2 (F := F) main_arg7 main_arg8 main_arg9 main_arg10 main_arg11 main_arg12 main_arg13 main_arg14 main_v33

def fn {F : FTy → Type} [FloatOps F] (main_arg0 : FVec F S32768x512 .f32) (main_arg1 : FVec F S32768x1024 .f32) (main_arg2 : FVec F S32768x1024 .f32) (main_arg3 : FVec F S512x1024 .f32) (main_arg4 : FVec F S1024 .f32) (main_arg5 : FVec F S2048x1024 .f32) (main_arg6 : FVec F S1024 .f32) (main_arg7 : FVec F S512x1024 .f32) (main_arg8 : FVec F S1024 .f32) (main_arg9 : FVec F S2048x1024 .f32) (main_arg10 : FVec F S1024 .f32) (main_arg11 : FVec F S512x1024 .f32) (main_arg12 : FVec F S1024 .f32) (main_arg13 : FVec F S2048x1024 .f32) (main_arg14 : FVec F S1024 .f32) : IVec S_ 1 :=
  let main_v0 : FVec F S32768x512 .f32 := Host.absf main_arg0
  let main_cst : FVec F S_ .f32 := constant S_ .f32 0x7F800000#32
  let main_v1 : FVec F S32768x512 .f32 := broadcastInDim S32768x512 ![] bcast_S_S32768x512 main_cst
  let main_v2 : IVec S32768x512 1 := cmpf .olt main_v0 main_v1
  let main_c : IVec S_ 1 := constantI S_ 1 1#1
  let main_v3 : IVec S_ 1 := (fun x v => Host.reduce IntOp.andi x v reducesTo_S32768x512_S_d0_1 h_S_) main_v2 main_c
  let main_v4 : FVec F S32768x1024 .f32 := Host.absf main_arg1
  let main_cst_0 : FVec F S_ .f32 := constant S_ .f32 0x7F800000#32
  let main_v5 : FVec F S32768x1024 .f32 := broadcastInDim S32768x1024 ![] bcast_S_S32768x1024 main_cst_0
  let main_v6 : IVec S32768x1024 1 := cmpf .olt main_v4 main_v5
  let main_c_1 : IVec S_ 1 := constantI S_ 1 1#1
  let main_v7 : IVec S_ 1 := (fun x v => Host.reduce IntOp.andi x v reducesTo_S32768x1024_S_d0_1 h_S_) main_v6 main_c_1
  let main_v8 : IVec S_ 1 := andi main_v3 main_v7
  let main_v9 : FVec F S32768x1024 .f32 := Host.absf main_arg2
  let main_cst_2 : FVec F S_ .f32 := constant S_ .f32 0x7F800000#32
  let main_v10 : FVec F S32768x1024 .f32 := broadcastInDim S32768x1024 ![] bcast_S_S32768x1024 main_cst_2
  let main_v11 : IVec S32768x1024 1 := cmpf .olt main_v9 main_v10
  let main_c_3 : IVec S_ 1 := constantI S_ 1 1#1
  let main_v12 : IVec S_ 1 := (fun x v => Host.reduce IntOp.andi x v reducesTo_S32768x1024_S_d0_1 h_S_) main_v11 main_c_3
  let main_v13 : IVec S_ 1 := andi main_v8 main_v12
  let main_v14 : FVec F S512x1024 .f32 := Host.absf main_arg3
  let main_cst_4 : FVec F S_ .f32 := constant S_ .f32 0x7F800000#32
  let main_v15 : FVec F S512x1024 .f32 := broadcastInDim S512x1024 ![] bcast_S_S512x1024 main_cst_4
  let main_v16 : IVec S512x1024 1 := cmpf .olt main_v14 main_v15
  fn_part1 (F := F) main_arg4 main_arg5 main_arg6 main_arg7 main_arg8 main_arg9 main_arg10 main_arg11 main_arg12 main_arg13 main_arg14 main_v13 main_v16
-- ==== Kernel.lean ====
abbrev S32768x512 : Shape := ⟨2, ![32768, 512]⟩
abbrev S32768x1024 : Shape := ⟨2, ![32768, 1024]⟩
abbrev S512x1024 : Shape := ⟨2, ![512, 1024]⟩
abbrev S1024 : Shape := ⟨1, ![1024]⟩
abbrev S2048x1024 : Shape := ⟨2, ![2048, 1024]⟩
abbrev S1024x1024 : Shape := ⟨2, ![1024, 1024]⟩
abbrev S1x1024 : Shape := ⟨2, ![1, 1024]⟩
abbrev S512x512 : Shape := ⟨2, ![512, 512]⟩

abbrev nBuf : Space → Nat
  | .hbm => 37
  | .vmem => 21
  | .smem => 0
  | _ => 0

abbrev bufTy : (tb : Table) → Fin (tcTables nBuf tb) → BufTy
  | .hbm, ⟨0, _⟩ => ⟨S32768x512, .f32⟩
  | .hbm, ⟨1, _⟩ => ⟨S32768x1024, .f32⟩
  | .hbm, ⟨2, _⟩ => ⟨S32768x1024, .f32⟩
  | .hbm, ⟨3, _⟩ => ⟨S512x1024, .f32⟩
  | .hbm, ⟨4, _⟩ => ⟨S1024, .f32⟩
  | .hbm, ⟨5, _⟩ => ⟨S2048x1024, .f32⟩
  | .hbm, ⟨6, _⟩ => ⟨S1024, .f32⟩
  | .hbm, ⟨7, _⟩ => ⟨S512x1024, .f32⟩
  | .hbm, ⟨8, _⟩ => ⟨S1024, .f32⟩
  | .hbm, ⟨9, _⟩ => ⟨S2048x1024, .f32⟩
  | .hbm, ⟨10, _⟩ => ⟨S1024, .f32⟩
  | .hbm, ⟨11, _⟩ => ⟨S512x1024, .f32⟩
  | .hbm, ⟨12, _⟩ => ⟨S1024, .f32⟩
  | .hbm, ⟨13, _⟩ => ⟨S2048x1024, .f32⟩
  | .hbm, ⟨14, _⟩ => ⟨S1024, .f32⟩
  | .hbm, ⟨15, _⟩ => ⟨S1024x1024, .f32⟩
  | .hbm, ⟨16, _⟩ => ⟨S1024x1024, .f32⟩
  | .hbm, ⟨17, _⟩ => ⟨S1024x1024, .f32⟩
  | .hbm, ⟨18, _⟩ => ⟨S1024x1024, .f32⟩
  | .hbm, ⟨19, _⟩ => ⟨S1024x1024, .f32⟩
  | .hbm, ⟨20, _⟩ => ⟨S1024x1024, .f32⟩
  | .hbm, ⟨21, _⟩ => ⟨S512x1024, .bf16⟩
  | .hbm, ⟨22, _⟩ => ⟨S512x1024, .bf16⟩
  | .hbm, ⟨23, _⟩ => ⟨S512x1024, .bf16⟩
  | .hbm, ⟨24, _⟩ => ⟨S1024x1024, .bf16⟩
  | .hbm, ⟨25, _⟩ => ⟨S1024x1024, .bf16⟩
  | .hbm, ⟨26, _⟩ => ⟨S1024x1024, .bf16⟩
  | .hbm, ⟨27, _⟩ => ⟨S1024x1024, .bf16⟩
  | .hbm, ⟨28, _⟩ => ⟨S1024x1024, .bf16⟩
  | .hbm, ⟨29, _⟩ => ⟨S1024x1024, .bf16⟩
  | .hbm, ⟨30, _⟩ => ⟨S1024, .f32⟩
  | .hbm, ⟨31, _⟩ => ⟨S1x1024, .f32⟩
  | .hbm, ⟨32, _⟩ => ⟨S1024, .f32⟩
  | .hbm, ⟨33, _⟩ => ⟨S1x1024, .f32⟩
  | .hbm, ⟨34, _⟩ => ⟨S1x1024, .f32⟩
  | .hbm, ⟨35, _⟩ => ⟨S1x1024, .f32⟩
  | .hbm, ⟨36, _⟩ => ⟨S32768x1024, .f32⟩
  | .local _ .vmem, ⟨0, _⟩ => ⟨S512x512, .f32⟩
  | .local _ .vmem, ⟨1, _⟩ => ⟨S512x512, .f32⟩
  | .local _ .vmem, ⟨2, _⟩ => ⟨S512x1024, .f32⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S512x1024, .bf16⟩
  | .local _ .vmem, ⟨7, _⟩ => ⟨S512x1024, .bf16⟩
  | .local _ .vmem, ⟨8, _⟩ => ⟨S512x1024, .bf16⟩
  | .local _ .vmem, ⟨9, _⟩ => ⟨S1024x1024, .bf16⟩
  | .local _ .vmem, ⟨10, _⟩ => ⟨S1024x1024, .bf16⟩
  | .local _ .vmem, ⟨11, _⟩ => ⟨S1024x1024, .bf16⟩
  | .local _ .vmem, ⟨12, _⟩ => ⟨S1024x1024, .bf16⟩
  | .local _ .vmem, ⟨13, _⟩ => ⟨S1024x1024, .bf16⟩
  | .local _ .vmem, ⟨14, _⟩ => ⟨S1024x1024, .bf16⟩
  | .local _ .vmem, ⟨15, _⟩ => ⟨S1x1024, .f32⟩
  | .local _ .vmem, ⟨16, _⟩ => ⟨S1x1024, .f32⟩
  | .local _ .vmem, ⟨17, _⟩ => ⟨S1x1024, .f32⟩
  | .local _ .vmem, ⟨18, _⟩ => ⟨S1x1024, .f32⟩
  | .local _ .vmem, ⟨19, _⟩ => ⟨S512x1024, .f32⟩
  | .local _ .vmem, ⟨20, _⟩ => ⟨S512x1024, .f32⟩
  | _, _ => ⟨S32768x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0 : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_v4 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg10_0 : Ref sig .tc := ⟨.vmem, 13, rfl⟩
abbrev cc0_stg11_0 : Ref sig .tc := ⟨.vmem, 14, rfl⟩
abbrev cc0_stg12_0 : Ref sig .tc := ⟨.vmem, 15, rfl⟩
abbrev cc0_stg13_0 : Ref sig .tc := ⟨.vmem, 16, rfl⟩
abbrev cc0_stg14_0 : Ref sig .tc := ⟨.vmem, 17, rfl⟩
abbrev cc0_stg15_0 : Ref sig .tc := ⟨.vmem, 18, rfl⟩
abbrev cc0_stg16_0 : Ref sig .tc := ⟨.vmem, 19, rfl⟩
abbrev cc0_stg16_1 : Ref sig .tc := ⟨.vmem, 20, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem10_0 : DmaSem sig := 13
abbrev cc0_sem11_0 : DmaSem sig := 14
abbrev cc0_sem12_0 : DmaSem sig := 15
abbrev cc0_sem13_0 : DmaSem sig := 16
abbrev cc0_sem14_0 : DmaSem sig := 17
abbrev cc0_sem15_0 : DmaSem sig := 18
abbrev cc0_sem16_0 : DmaSem sig := 19
abbrev cc0_sem16_1 : DmaSem sig := 20

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_16 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S512x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S512x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S512x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1024x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1024x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1024x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1024x1024 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1024x1024 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1024x1024 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1x1024 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S1x1024 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S1x1024 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 1 → Memref sig .tc .vmem S1x1024 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]

abbrev stage0_16 : Fin 2 → Memref sig .tc .vmem S512x1024 .f32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]

class Facts₀ : Prop where
  slices_S2048x1024_S1024x1024_0_0 : S2048x1024.Slices ![0, 0] S1024x1024
  slices_S2048x1024_S1024x1024_1024_0 : S2048x1024.Slices ![1024, 0] S1024x1024
  bitsLt_bf16_f32 : FTy.bits .bf16 < FTy.bits .f32
  shapeCasts_S1024_S1x1024 : S1024.ShapeCasts S1x1024
  inb_S512x512_S512x512_0_0 : ∀ a, (![0, 0] : Fin 2 → Nat) a + S512x512.size a ≤ S512x512.size a
  h_S512x512 : 0 < S512x512.numel
  inb_S512x1024_S512x1024_0_0 : ∀ a, (![0, 0] : Fin 2 → Nat) a + S512x1024.size a ≤ S512x1024.size a
  h_S512x1024 : 0 < S512x1024.numel
  shapeCasts_S512x1024_S512x1024 : S512x1024.ShapeCasts S512x1024
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S512x1024 : S1x1024.Broadcasts S512x1024
  dot_S512x512_S512x1024_S512x1024_1_0_0_1_n_n_wf : DotDims.WF S512x512 S512x1024 S512x1024 [1] [0] [0] [1] [] []
  dot_S512x1024_S1024x1024_S512x1024_1_0_0_1_n_n_wf : DotDims.WF S512x1024 S1024x1024 S512x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x512.size a ≤ S32768x512.size a
  hwx0_0 : ∀ i : grid0.Coords, EltTy.bits .f32 = 32 ∨ (Rect.block (s := S32768x512) S512x512.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S512x1024.size a ≤ S32768x1024.size a
  hwx0_1 : ∀ i : grid0.Coords, EltTy.bits .f32 = 32 ∨ (Rect.block (s := S32768x1024) S512x1024.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S512x1024.size a ≤ S32768x1024.size a
  hwx0_2 : ∀ i : grid0.Coords, EltTy.bits .f32 = 32 ∨ (Rect.block (s := S32768x1024) S512x1024.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S512x1024.size a ≤ S512x1024.size a
  hwx0_3 : ∀ i : grid0.Coords, EltTy.bits .bf16 = 32 ∨ (Rect.block (s := S512x1024) S512x1024.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S512x1024.size a ≤ S512x1024.size a
  hwx0_4 : ∀ i : grid0.Coords, EltTy.bits .bf16 = 32 ∨ (Rect.block (s := S512x1024) S512x1024.size (cc0_transform_4 i) (hinb0_4 i)).WholeWords (EltTy.packing .bf16)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S512x1024.size a ≤ S512x1024.size a
  hwx0_5 : ∀ i : grid0.Coords, EltTy.bits .bf16 = 32 ∨ (Rect.block (s := S512x1024) S512x1024.size (cc0_transform_5 i) (hinb0_5 i)).WholeWords (EltTy.packing .bf16)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1024x1024.size a ≤ S1024x1024.size a
  hwx0_6 : ∀ i : grid0.Coords, EltTy.bits .bf16 = 32 ∨ (Rect.block (s := S1024x1024) S1024x1024.size (cc0_transform_6 i) (hinb0_6 i)).WholeWords (EltTy.packing .bf16)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S1024x1024.size a ≤ S1024x1024.size a
  hwx0_7 : ∀ i : grid0.Coords, EltTy.bits .bf16 = 32 ∨ (Rect.block (s := S1024x1024) S1024x1024.size (cc0_transform_7 i) (hinb0_7 i)).WholeWords (EltTy.packing .bf16)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S1024x1024.size a ≤ S1024x1024.size a
  hwx0_8 : ∀ i : grid0.Coords, EltTy.bits .bf16 = 32 ∨ (Rect.block (s := S1024x1024) S1024x1024.size (cc0_transform_8 i) (hinb0_8 i)).WholeWords (EltTy.packing .bf16)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S1024x1024.size a ≤ S1024x1024.size a
  hwx0_9 : ∀ i : grid0.Coords, EltTy.bits .bf16 = 32 ∨ (Rect.block (s := S1024x1024) S1024x1024.size (cc0_transform_9 i) (hinb0_9 i)).WholeWords (EltTy.packing .bf16)
  hstage0_10 : ∀ j, (stage0_10 j).IsWhole
  nbuf0_10 : grid0.bufCount reads0_10 true = 1
  hreads0_10 : ∀ i i' : grid0.Coords, (∀ a, reads0_10 a = true → i a = i' a) → cc0_transform_10 i = cc0_transform_10 i'
  hinb0_10 : ∀ (i : grid0.Coords) a, (cc0_transform_10 i a + 1) * S1024x1024.size a ≤ S1024x1024.size a
  hwx0_10 : ∀ i : grid0.Coords, EltTy.bits .bf16 = 32 ∨ (Rect.block (s := S1024x1024) S1024x1024.size (cc0_transform_10 i) (hinb0_10 i)).WholeWords (EltTy.packing .bf16)
  hstage0_11 : ∀ j, (stage0_11 j).IsWhole
  nbuf0_11 : grid0.bufCount reads0_11 true = 1
  hreads0_11 : ∀ i i' : grid0.Coords, (∀ a, reads0_11 a = true → i a = i' a) → cc0_transform_11 i = cc0_transform_11 i'
  hinb0_11 : ∀ (i : grid0.Coords) a, (cc0_transform_11 i a + 1) * S1024x1024.size a ≤ S1024x1024.size a
  hwx0_11 : ∀ i : grid0.Coords, EltTy.bits .bf16 = 32 ∨ (Rect.block (s := S1024x1024) S1024x1024.size (cc0_transform_11 i) (hinb0_11 i)).WholeWords (EltTy.packing .bf16)
  hstage0_12 : ∀ j, (stage0_12 j).IsWhole
  nbuf0_12 : grid0.bufCount reads0_12 true = 1
  hreads0_12 : ∀ i i' : grid0.Coords, (∀ a, reads0_12 a = true → i a = i' a) → cc0_transform_12 i = cc0_transform_12 i'
  hinb0_12 : ∀ (i : grid0.Coords) a, (cc0_transform_12 i a + 1) * S1x1024.size a ≤ S1x1024.size a
  hwx0_12 : ∀ i : grid0.Coords, EltTy.bits .f32 = 32 ∨ (Rect.block (s := S1x1024) S1x1024.size (cc0_transform_12 i) (hinb0_12 i)).WholeWords (EltTy.packing .f32)
  hstage0_13 : ∀ j, (stage0_13 j).IsWhole
  nbuf0_13 : grid0.bufCount reads0_13 true = 1
  hreads0_13 : ∀ i i' : grid0.Coords, (∀ a, reads0_13 a = true → i a = i' a) → cc0_transform_13 i = cc0_transform_13 i'
  hinb0_13 : ∀ (i : grid0.Coords) a, (cc0_transform_13 i a + 1) * S1x1024.size a ≤ S1x1024.size a
  hwx0_13 : ∀ i : grid0.Coords, EltTy.bits .f32 = 32 ∨ (Rect.block (s := S1x1024) S1x1024.size (cc0_transform_13 i) (hinb0_13 i)).WholeWords (EltTy.packing .f32)
  hstage0_14 : ∀ j, (stage0_14 j).IsWhole
  nbuf0_14 : grid0.bufCount reads0_14 true = 1
  hreads0_14 : ∀ i i' : grid0.Coords, (∀ a, reads0_14 a = true → i a = i' a) → cc0_transform_14 i = cc0_transform_14 i'
  hinb0_14 : ∀ (i : grid0.Coords) a, (cc0_transform_14 i a + 1) * S1x1024.size a ≤ S1x1024.size a
  hwx0_14 : ∀ i : grid0.Coords, EltTy.bits .f32 = 32 ∨ (Rect.block (s := S1x1024) S1x1024.size (cc0_transform_14 i) (hinb0_14 i)).WholeWords (EltTy.packing .f32)
  hstage0_15 : ∀ j, (stage0_15 j).IsWhole
  nbuf0_15 : grid0.bufCount reads0_15 true = 1
  hreads0_15 : ∀ i i' : grid0.Coords, (∀ a, reads0_15 a = true → i a = i' a) → cc0_transform_15 i = cc0_transform_15 i'
  hinb0_15 : ∀ (i : grid0.Coords) a, (cc0_transform_15 i a + 1) * S1x1024.size a ≤ S1x1024.size a
  hwx0_15 : ∀ i : grid0.Coords, EltTy.bits .f32 = 32 ∨ (Rect.block (s := S1x1024) S1x1024.size (cc0_transform_15 i) (hinb0_15 i)).WholeWords (EltTy.packing .f32)
  hstage0_16 : ∀ j, (stage0_16 j).IsWhole
  nbuf0_16 : grid0.bufCount reads0_16 false = 2
  hreads0_16 : ∀ i i' : grid0.Coords, (∀ a, reads0_16 a = true → i a = i' a) → cc0_transform_16 i = cc0_transform_16 i'
  hinb0_16 : ∀ (i : grid0.Coords) a, (cc0_transform_16 i a + 1) * S512x1024.size a ≤ S32768x1024.size a
  hwx0_16 : ∀ i : grid0.Coords, EltTy.bits .f32 = 32 ∨ (Rect.block (s := S32768x1024) S512x1024.size (cc0_transform_16 i) (hinb0_16 i)).WholeWords (EltTy.packing .f32)

variable [Facts₀]

def dot_S512x512_S512x1024_S512x1024_1_0_0_1_n_n : DotDims S512x512 S512x1024 S512x1024 where
  lhsContracting := [1]
  rhsContracting := [0]
  lhsNonContracting := [0]
  rhsNonContracting := [1]
  lhsBatch := []
  rhsBatch := []
  wf := dot_S512x512_S512x1024_S512x1024_1_0_0_1_n_n_wf
def dot_S512x1024_S1024x1024_S512x1024_1_0_0_1_n_n : DotDims S512x1024 S1024x1024 S512x1024 where
  lhsContracting := [1]
  rhsContracting := [0]
  lhsNonContracting := [0]
  rhsNonContracting := [1]
  lhsBatch := []
  rhsBatch := []
  wf := dot_S512x1024_S1024x1024_S512x1024_1_0_0_1_n_n_wf

abbrev win0_0 : Pipeline.Window sig grid0 :=
  Pipeline.Window.ofSpec (Memref.whole main_arg0) S512x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S512x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S512x1024.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v6) S512x1024.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v7) S512x1024.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v8) S512x1024.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v9) S1024x1024.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v10) S1024x1024.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v11) S1024x1024.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v12) S1024x1024.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_v13) S1024x1024.size cc0_transform_10 reads0_10 false true 1 stage0_10 sem0_10
    hrank0 hreads0_10 hinb0_10 nbuf0_10 (Memref.isWhole_whole _) hwx0_10 hstage0_10

abbrev win0_11 : Pipeline.Window sig grid0 :=
  Pipeline.Window.ofSpec (Memref.whole main_v14) S1024x1024.size cc0_transform_11 reads0_11 false true 1 stage0_11 sem0_11
    hrank0 hreads0_11 hinb0_11 nbuf0_11 (Memref.isWhole_whole _) hwx0_11 hstage0_11

abbrev win0_12 : Pipeline.Window sig grid0 :=
  Pipeline.Window.ofSpec (Memref.whole main_v16) S1x1024.size cc0_transform_12 reads0_12 false true 1 stage0_12 sem0_12
    hrank0 hreads0_12 hinb0_12 nbuf0_12 (Memref.isWhole_whole _) hwx0_12 hstage0_12

abbrev win0_13 : Pipeline.Window sig grid0 :=
  Pipeline.Window.ofSpec (Memref.whole main_v18) S1x1024.size cc0_transform_13 reads0_13 false true 1 stage0_13 sem0_13
    hrank0 hreads0_13 hinb0_13 nbuf0_13 (Memref.isWhole_whole _) hwx0_13 hstage0_13

abbrev win0_14 : Pipeline.Window sig grid0 :=
  Pipeline.Window.ofSpec (Memref.whole main_v19) S1x1024.size cc0_transform_14 reads0_14 false true 1 stage0_14 sem0_14
    hrank0 hreads0_14 hinb0_14 nbuf0_14 (Memref.isWhole_whole _) hwx0_14 hstage0_14

abbrev win0_15 : Pipeline.Window sig grid0 :=
  Pipeline.Window.ofSpec (Memref.whole main_v20) S1x1024.size cc0_transform_15 reads0_15 false true 1 stage0_15 sem0_15
    hrank0 hreads0_15 hinb0_15 nbuf0_15 (Memref.isWhole_whole _) hwx0_15 hstage0_15

abbrev win0_16 : Pipeline.Window sig grid0 :=
  Pipeline.Window.ofSpec (Memref.whole main_v21) S512x1024.size cc0_transform_16 reads0_16 true false 2 stage0_16 sem0_16
    hrank0 hreads0_16 hinb0_16 nbuf0_16 (Memref.isWhole_whole _) hwx0_16 hstage0_16

abbrev win0 : Fin 17 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | 12 => win0_12 | 13 => win0_13 | 14 => win0_14 | 15 => win0_15 | 16 => win0_16 | ⟨_ + 17, h⟩ => absurd h (Nat.not_lt.2 (Nat.le_add_left _ _))
abbrev spec0 : Fin 17 → Pipeline.WinSpec sig grid0.rank := fun w => (win0 w).toWinSpec

class Facts : Prop extends Facts₀ where

variable [Facts]
-- ==== ReferenceIdeal.lean ====
abbrev S32768x512 : Shape := ⟨2, ![32768, 512]⟩
abbrev S32768x1024 : Shape := ⟨2, ![32768, 1024]⟩
abbrev S512x1024 : Shape := ⟨2, ![512, 1024]⟩
abbrev S1024 : Shape := ⟨1, ![1024]⟩
abbrev S2048x1024 : Shape := ⟨2, ![2048, 1024]⟩
abbrev S32768x2048 : Shape := ⟨2, ![32768, 2048]⟩
abbrev S1x1024 : Shape := ⟨2, ![1, 1024]⟩
abbrev S_ : Shape := ⟨0, ![]⟩

abbrev nBuf : Space → Nat
  | .hbm => 67
  | .vmem => 0
  | .smem => 0
  | _ => 0

abbrev bufTy : (tb : Table) → Fin (tcTables nBuf tb) → BufTy
  | .hbm, ⟨0, _⟩ => ⟨S32768x512, .f32⟩
  | .hbm, ⟨1, _⟩ => ⟨S32768x1024, .f32⟩
  | .hbm, ⟨2, _⟩ => ⟨S32768x1024, .f32⟩
  | .hbm, ⟨3, _⟩ => ⟨S512x1024, .f32⟩
  | .hbm, ⟨4, _⟩ => ⟨S1024, .f32⟩
  | .hbm, ⟨5, _⟩ => ⟨S2048x1024, .f32⟩
  | .hbm, ⟨6, _⟩ => ⟨S1024, .f32⟩
  | .hbm, ⟨7, _⟩ => ⟨S512x1024, .f32⟩
  | .hbm, ⟨8, _⟩ => ⟨S1024, .f32⟩
  | .hbm, ⟨9, _⟩ => ⟨S2048x1024, .f32⟩
  | .hbm, ⟨10, _⟩ => ⟨S1024, .f32⟩
  | .hbm, ⟨11, _⟩ => ⟨S512x1024, .f32⟩
  | .hbm, ⟨12, _⟩ => ⟨S1024, .f32⟩
  | .hbm, ⟨13, _⟩ => ⟨S2048x1024, .f32⟩
  | .hbm, ⟨14, _⟩ => ⟨S1024, .f32⟩
  | .hbm, ⟨15, _⟩ => ⟨S32768x2048, .f32⟩
  | .hbm, ⟨16, _⟩ => ⟨S32768x1024, .f32⟩
  | .hbm, ⟨17, _⟩ => ⟨S1x1024, .f32⟩
  | .hbm, ⟨18, _⟩ => ⟨S32768x1024, .f32⟩
  | .hbm, ⟨19, _⟩ => ⟨S32768x1024, .f32⟩
  | .hbm, ⟨20, _⟩ => ⟨S32768x1024, .f32⟩
  | .hbm, ⟨21, _⟩ => ⟨S32768x1024, .f32⟩
  | .hbm, ⟨22, _⟩ => ⟨S1x1024, .f32⟩
  | .hbm, ⟨23, _⟩ => ⟨S32768x1024, .f32⟩
  | .hbm, ⟨24, _⟩ => ⟨S32768x1024, .f32⟩
  | .hbm, ⟨25, _⟩ => ⟨S32768x1024, .f32⟩
  | .hbm, ⟨26, _⟩ => ⟨S32768x1024, .f32⟩
  | .hbm, ⟨27, _⟩ => ⟨S_, .f32⟩
  | .hbm, ⟨28, _⟩ => ⟨S32768x1024, .f32⟩
  | .hbm, ⟨29, _⟩ => ⟨S32768x1024, .f32⟩
  | .hbm, ⟨30, _⟩ => ⟨S_, .f32⟩
  | .hbm, ⟨31, _⟩ => ⟨S32768x1024, .f32⟩
  | .hbm, ⟨32, _⟩ => ⟨S32768x1024, .f32⟩
  | .hbm, ⟨33, _⟩ => ⟨S32768x1024, .f32⟩
  | .hbm, ⟨34, _⟩ => ⟨S1x1024, .f32⟩
  | .hbm, ⟨35, _⟩ => ⟨S32768x1024, .f32⟩
  | .hbm, ⟨36, _⟩ => ⟨S32768x1024, .f32⟩
  | .hbm, ⟨37, _⟩ => ⟨S32768x1024, .f32⟩
  | .hbm, ⟨38, _⟩ => ⟨S32768x1024, .f32⟩
  | .hbm, ⟨39, _⟩ => ⟨S1x1024, .f32⟩
  | .hbm, ⟨40, _⟩ => ⟨S32768x1024, .f32⟩
  | .hbm, ⟨41, _⟩ => ⟨S32768x1024, .f32⟩
  | .hbm, ⟨42, _⟩ => ⟨S32768x1024, .f32⟩
  | .hbm, ⟨43, _⟩ => ⟨S32768x1024, .f32⟩
  | .hbm, ⟨44, _⟩ => ⟨S_, .f32⟩
  | .hbm, ⟨45, _⟩ => ⟨S32768x1024, .f32⟩
  | .hbm, ⟨46, _⟩ => ⟨S32768x1024, .f32⟩
  | .hbm, ⟨47, _⟩ => ⟨S_, .f32⟩
  | .hbm, ⟨48, _⟩ => ⟨S32768x1024, .f32⟩
  | .hbm, ⟨49, _⟩ => ⟨S32768x1024, .f32⟩
  | .hbm, ⟨50, _⟩ => ⟨S32768x1024, .f32⟩
  | .hbm, ⟨51, _⟩ => ⟨S1x1024, .f32⟩
  | .hbm, ⟨52, _⟩ => ⟨S32768x1024, .f32⟩
  | .hbm, ⟨53, _⟩ => ⟨S32768x1024, .f32⟩
  | .hbm, ⟨54, _⟩ => ⟨S32768x1024, .f32⟩
  | .hbm, ⟨55, _⟩ => ⟨S1x1024, .f32⟩
  | .hbm, ⟨56, _⟩ => ⟨S32768x1024, .f32⟩
  | .hbm, ⟨57, _⟩ => ⟨S32768x1024, .f32⟩
  | .hbm, ⟨58, _⟩ => ⟨S32768x1024, .f32⟩
  | .hbm, ⟨59, _⟩ => ⟨S32768x1024, .f32⟩
  | .hbm, ⟨60, _⟩ => ⟨S32768x1024, .f32⟩
  | .hbm, ⟨61, _⟩ => ⟨S32768x1024, .f32⟩
  | .hbm, ⟨62, _⟩ => ⟨S_, .f32⟩
  | .hbm, ⟨63, _⟩ => ⟨S32768x1024, .f32⟩
  | .hbm, ⟨64, _⟩ => ⟨S32768x1024, .f32⟩
  | .hbm, ⟨65, _⟩ => ⟨S32768x1024, .f32⟩
  | .hbm, ⟨66, _⟩ => ⟨S32768x1024, .f32⟩
  | _, _ => ⟨S32768x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0 : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_v4 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_cst : Ref sig .tc := ⟨.hbm, 27, rfl⟩
abbrev main_v12 : Ref sig .tc := ⟨.hbm, 28, rfl⟩
abbrev main_v13 : Ref sig .tc := ⟨.hbm, 29, rfl⟩
abbrev main_cst_0 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_cst_1 : Ref sig .tc := ⟨.hbm, 44, rfl⟩
abbrev main_v27 : Ref sig .tc := ⟨.hbm, 45, rfl⟩
abbrev main_v28 : Ref sig .tc := ⟨.hbm, 46, rfl⟩
abbrev main_cst_2 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_cst_3 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩

abbrev nD : Nat := 1
abbrev τ : Topo := Topo.v7x

variable {F : FTy → Type} [FloatOps F]

class Facts₀ : Prop where
  concatenates_S32768x1024_S32768x1024_S32768x2048_d1 : Shape.Concatenates [S32768x1024, S32768x1024] S32768x2048 1
  bcast_S1024_S1x1024_1 : S1024.BroadcastsInDim S1x1024 (![1] : Fin 1 → Fin S1x1024.rank)
  bcast_S1x1024_S32768x1024_0_1 : S1x1024.BroadcastsInDim S32768x1024 (![0, 1] : Fin 2 → Fin S32768x1024.rank)
  bcast_S_S32768x1024 : S_.BroadcastsInDim S32768x1024 (![] : Fin 0 → Fin S32768x1024.rank)
  dot_S32768x512_S512x1024_S32768x1024_1_0_0_1_n_n_wf : DotDims.WF S32768x512 S512x1024 S32768x1024 [1] [0] [0] [1] [] []
  dot_S32768x2048_S2048x1024_S32768x1024_1_0_0_1_n_n_wf : DotDims.WF S32768x2048 S2048x1024 S32768x1024 [1] [0] [0] [1] [] []

variable [Facts₀]

def dot_S32768x512_S512x1024_S32768x1024_1_0_0_1_n_n : DotDims S32768x512 S512x1024 S32768x1024 where
  lhsContracting := [1]
  rhsContracting := [0]
  lhsNonContracting := [0]
  rhsNonContracting := [1]
  lhsBatch := []
  rhsBatch := []
  wf := dot_S32768x512_S512x1024_S32768x1024_1_0_0_1_n_n_wf
def dot_S32768x2048_S2048x1024_S32768x1024_1_0_0_1_n_n : DotDims S32768x2048 S2048x1024 S32768x1024 where
  lhsContracting := [1]
  rhsContracting := [0]
  lhsNonContracting := [0]
  rhsNonContracting := [1]
  lhsBatch := []
  rhsBatch := []
  wf := dot_S32768x2048_S2048x1024_S32768x1024_1_0_0_1_n_n_wf

class Facts : Prop extends Facts₀ where

variable [Facts]
-- ==== Proof.Spec.lean ====
/-
  The mathematics of one step of the gated recurrent cell, free of any program.

  For a batch row with input row x (512 entries), hidden row h and context row c (1024 entries each), and for an
  output column j, write  a·w  for the sum over k of a k * w k.  With the columns of the nine weight blocks and the
  four bias entries of column j,

      r    = logistic (x·wrx + h·wrh + c·wrc + br)
      u    = logistic (x·wux + h·wuh + c·wuc + bu)
      cand = tanh (x·whx + bhx + r * (h·whh + c·whc + bhhc))
      new  = u * h j + (1 - u) * cand.

  `cell` is that entry; `G` is the whole result array as a function of the fifteen argument arrays, where the
  (2048 × 1024) matrices that act on the concatenation [h, c] are read as an upper half (rows 0 … 1023, acting on
  h) and a lower half (rows 1024 … 2047, acting on c), and where the two biases of the r gate and of the u gate are
  added before use.  `GA` is the same entry over the sixteen arrays as the kernel receives them (the halves
  already cut, the biases already summed and laid out as one row).

  The reference forms the same numbers in another order: it multiplies the concatenated row [h, c] by the whole
  (2048 × 1024) matrix and adds the two biases one after the other.  Over the extended reals addition is commutative
  and associative without any finiteness assumption, and a sum over 2048 indices is the sum over its two halves,
  so the two orders agree (`sum_halves`, `lin_regroup`).  The reference also spells the logistic function as
  1 / (1 + exp (-z)), which is the definition of the logistic function on the extended reals (`logistic_spelled`).
-/
import Idealize.ShloMosaic.PureOps.Ideal
import Idealize.ShloMosaic.PureOps.Ideal.Laws
import Idealize.ShloMosaic.Lib.ValueIdx

noncomputable section

open scoped BigOperators

namespace Cert.Spec

open Idealize.ShloMosaic Idealize.ShloMosaic.ValueIdx

/-- The sum over k of a k * b k. -/
def dot {K : Nat} (a b : Fin K → EReal) : EReal := ∑ k : Fin K, a k * b k

/-- The number the f32 pattern of 1.0 denotes. -/
def one : EReal := Ideal.ofBits .f32 0x3F800000#32

/-- That number is 1. -/
theorem one_eq : one = 1 := by
  unfold one
  simp [Ideal.ofBits, Ideal.ieee, -EReal.coe_mul]; norm_num

/-- One entry of the new hidden state: row data of x, h, c, the old hidden entry, one column of each weight block,
    and the four bias entries of that column. -/
def cell (xr : Fin 512 → EReal) (hr cr : Fin 1024 → EReal) (hj : EReal)
    (wrx wux whx : Fin 512 → EReal) (wrh wrc wuh wuc whh whc : Fin 1024 → EReal)
    (br bu bhx bhhc : EReal) : EReal :=
  Ideal.logistic (dot xr wux + dot hr wuh + dot cr wuc + bu) * hj
    + (one - Ideal.logistic (dot xr wux + dot hr wuh + dot cr wuc + bu))
      * Ideal.tanh (dot xr whx + bhx
          + Ideal.logistic (dot xr wrx + dot hr wrh + dot cr wrc + br) * (dot hr whh + dot cr whc + bhhc))

/-- Row k of the upper half of a 2048-row matrix. -/
def lo (k : Fin 1024) : Fin 2048 := ⟨k.val, by omega⟩
/-- Row k of the lower half of a 2048-row matrix. -/
def hi (k : Fin 1024) : Fin 2048 := ⟨1024 + k.val, by omega⟩

theorem lo_val (k : Fin 1024) : (lo k).val = k.val := rfl
theorem hi_val (k : Fin 1024) : (hi k).val = 1024 + k.val := rfl

/-- A sum over 2048 indices is the sum over the first 1024 plus the sum over the last 1024. -/
theorem sum_halves (f : Fin 2048 → EReal) :
    ∑ k : Fin 2048, f k = ∑ k : Fin 1024, f (lo k) + ∑ k : Fin 1024, f (hi k) := by
  have h := Fin.sum_univ_add (M := EReal) (a := 1024) (b := 1024) (fun k => f k)
  refine h.trans ?_
  refine congrArg₂ (· + ·) (Finset.sum_congr rfl fun k _ => congrArg f (Fin.ext rfl))
    (Finset.sum_congr rfl fun k _ => congrArg f (Fin.ext rfl))

/-- The reference adds the first bias before the product with [h, c] and the second after it; the kernel adds the
    three products first and the summed biases last. Only commutativity and associativity of + are used. -/
theorem lin_regroup (a b c d e : EReal) : a + d + (b + c) + e = a + b + c + (d + e) := by
  ac_rfl

/-- 1 / (1 + exp (-z)), with 1 written as the f32 pattern's value, is the logistic function. -/
theorem logistic_spelled (z : EReal) : Ideal.div one (one + Ideal.exp (-z)) = Ideal.logistic z := by
  rw [one_eq]; rfl

/-- The result array over the fifteen argument arrays, in the order x, h, c, W_ux, b_ux, W_uhc, b_uhc, W_rx, b_rx,
    W_rhc, b_rhc, W_hx, b_hx, W_hhc, b_hhc. -/
def G (x : FVec Ideal ⟨2, ![32768, 512]⟩ .f32) (h c : FVec Ideal ⟨2, ![32768, 1024]⟩ .f32)
    (Wux : FVec Ideal ⟨2, ![512, 1024]⟩ .f32) (bux : FVec Ideal ⟨1, ![1024]⟩ .f32)
    (Wuhc : FVec Ideal ⟨2, ![2048, 1024]⟩ .f32) (buhc : FVec Ideal ⟨1, ![1024]⟩ .f32)
    (Wrx : FVec Ideal ⟨2, ![512, 1024]⟩ .f32) (brx : FVec Ideal ⟨1, ![1024]⟩ .f32)
    (Wrhc : FVec Ideal ⟨2, ![2048, 1024]⟩ .f32) (brhc : FVec Ideal ⟨1, ![1024]⟩ .f32)
    (Whx : FVec Ideal ⟨2, ![512, 1024]⟩ .f32) (bhx : FVec Ideal ⟨1, ![1024]⟩ .f32)
    (Whhc : FVec Ideal ⟨2, ![2048, 1024]⟩ .f32) (bhhc : FVec Ideal ⟨1, ![1024]⟩ .f32) :
    FVec Ideal ⟨2, ![32768, 1024]⟩ .f32 := fun i =>
  cell (fun k => (x (ix2 (i 0) k) : EReal)) (fun k => (h (ix2 (i 0) k) : EReal)) (fun k => (c (ix2 (i 0) k) : EReal))
    (h (ix2 (i 0) (i 1)) : EReal)
    (fun k => (Wrx (ix2 k (i 1)) : EReal)) (fun k => (Wux (ix2 k (i 1)) : EReal)) (fun k => (Whx (ix2 k (i 1)) : EReal))
    (fun k => (Wrhc (ix2 (lo k) (i 1)) : EReal)) (fun k => (Wrhc (ix2 (hi k) (i 1)) : EReal))
    (fun k => (Wuhc (ix2 (lo k) (i 1)) : EReal)) (fun k => (Wuhc (ix2 (hi k) (i 1)) : EReal))
    (fun k => (Whhc (ix2 (lo k) (i 1)) : EReal)) (fun k => (Whhc (ix2 (hi k) (i 1)) : EReal))
    ((brx (ix1 (i 1)) : EReal) + (brhc (ix1 (i 1)) : EReal)) ((bux (ix1 (i 1)) : EReal) + (buhc (ix1 (i 1)) : EReal))
    (bhx (ix1 (i 1)) : EReal) (bhhc (ix1 (i 1)) : EReal)

/-- The same entry over the sixteen arrays in the order the kernel receives them: x, h, c; the x-blocks of the r, u
    and candidate gates; the h-half and c-half of the r, u and candidate matrices; the summed r bias, the summed u
    bias, the candidate's x bias and its [h, c] bias, each as one row. -/
def GA (A0 : FVec Ideal ⟨2, ![32768, 512]⟩ .f32) (A1 A2 : FVec Ideal ⟨2, ![32768, 1024]⟩ .f32)
    (A3 A4 A5 : FVec Ideal ⟨2, ![512, 1024]⟩ .bf16)
    (A6 A7 A8 A9 A10 A11 : FVec Ideal ⟨2, ![1024, 1024]⟩ .bf16)
    (A12 A13 A14 A15 : FVec Ideal ⟨2, ![1, 1024]⟩ .f32) :
    FVec Ideal ⟨2, ![32768, 1024]⟩ .f32 := fun i =>
  cell (fun k => (A0 (ix2 (i 0) k) : EReal)) (fun k => (A1 (ix2 (i 0) k) : EReal)) (fun k => (A2 (ix2 (i 0) k) : EReal))
    (A1 (ix2 (i 0) (i 1)) : EReal)
    (fun k => (A3 (ix2 k (i 1)) : EReal)) (fun k => (A4 (ix2 k (i 1)) : EReal)) (fun k => (A5 (ix2 k (i 1)) : EReal))
    (fun k => (A6 (ix2 k (i 1)) : EReal)) (fun k => (A7 (ix2 k (i 1)) : EReal))
    (fun k => (A8 (ix2 k (i 1)) : EReal)) (fun k => (A9 (ix2 k (i 1)) : EReal))
    (fun k => (A10 (ix2 k (i 1)) : EReal)) (fun k => (A11 (ix2 k (i 1)) : EReal))
    (A12 (ix2 (0 : Fin 1) (i 1)) : EReal) (A13 (ix2 (0 : Fin 1) (i 1)) : EReal)
    (A14 (ix2 (0 : Fin 1) (i 1)) : EReal) (A15 (ix2 (0 : Fin 1) (i 1)) : EReal)

end Cert.Spec

end
-- ==== Proof.LibDense.lean ====
/-
  A general lemma about plain matrix products, free of any program.

  A matrix product's dimension record (`DotDims`) sums over an abstract contraction index. For the plain
  product of an M×K by a K×N array — one contracted axis, the left operand's columns against the right operand's
  rows, no batch axis — that sum is the familiar ∑ₖ L (i, k) · R (k, j) over k : Fin K. `PlainDot d` collects the
  coordinate facts that say a record is such a product (each holds by computation for a record of literal extents),
  and `sum_plain` reindexes the sum. The kernel's `tpu.matmul` into a zero accumulator and the host's
  `dot_general` both read, at the exact instance, as the abstract sum (PureOps/Ideal/Laws.lean
  `matmul_constant_zero_apply`, `dotGeneral_apply`), so this one lemma serves both.
-/
import Idealize.ShloMosaic.PureOps.Ideal
import Idealize.ShloMosaic.PureOps.Ideal.Laws
import Idealize.ShloMosaic.Lib.ValueIdx

noncomputable section

open scoped BigOperators

namespace Cert.LibDense

open Idealize.ShloMosaic Idealize.ShloMosaic.ValueIdx

/-- The record `d` is the plain product of an M×K by a K×N array: its contraction has one axis of extent K, the
    left operand is read at (row of the output, k) and the right operand at (k, column of the output). -/
structure PlainDot {M K N : Nat} (d : DotDims (⟨2, ![M, K]⟩ : Shape) (⟨2, ![K, N]⟩ : Shape) (⟨2, ![M, N]⟩ : Shape)) : Prop where
  rank : d.contr.rank = 1
  size : d.contr.size ⟨0, by omega⟩ = K
  l0 : ∀ (j : (⟨2, ![M, N]⟩ : Shape).Idx) (k : d.contr.Idx), (d.lhsIdx j k 0).val = (j 0).val
  l1 : ∀ (j : (⟨2, ![M, N]⟩ : Shape).Idx) (k : d.contr.Idx), (d.lhsIdx j k 1).val = (k ⟨0, by omega⟩).val
  r0 : ∀ (j : (⟨2, ![M, N]⟩ : Shape).Idx) (k : d.contr.Idx), (d.rhsIdx j k 0).val = (k ⟨0, by omega⟩).val
  r1 : ∀ (j : (⟨2, ![M, N]⟩ : Shape).Idx) (k : d.contr.Idx), (d.rhsIdx j k 1).val = (j 1).val

variable {M K N : Nat} {d : DotDims (⟨2, ![M, K]⟩ : Shape) (⟨2, ![K, N]⟩ : Shape) (⟨2, ![M, N]⟩ : Shape)}

/-- The left operand's index at contraction position `k : Fin K` is (row, k). -/
theorem PlainDot.lhs_eq (h : PlainDot d) (j : (⟨2, ![M, N]⟩ : Shape).Idx) (k : Fin K) :
    d.lhsIdx j ((contrEquiv1 d K h.rank h.size).symm k) = ix2 (j 0) k := by
  funext a
  apply Fin.ext
  match a with
  | ⟨0, _⟩ => exact h.l0 j _
  | ⟨1, _⟩ => exact (h.l1 j _).trans (contrEquiv1_symm_val d K h.rank h.size k)

/-- The right operand's index at contraction position `k : Fin K` is (k, column). -/
theorem PlainDot.rhs_eq (h : PlainDot d) (j : (⟨2, ![M, N]⟩ : Shape).Idx) (k : Fin K) :
    d.rhsIdx j ((contrEquiv1 d K h.rank h.size).symm k) = ix2 k (j 1) := by
  funext a
  apply Fin.ext
  match a with
  | ⟨0, _⟩ => exact (h.r0 j _).trans (contrEquiv1_symm_val d K h.rank h.size k)
  | ⟨1, _⟩ => exact h.r1 j _

/-- A plain product's contraction sum is ∑ₖ L (row, k) · R (k, column) over k : Fin K. -/
theorem sum_plain (h : PlainDot d) (L : (⟨2, ![M, K]⟩ : Shape).Idx → EReal) (R : (⟨2, ![K, N]⟩ : Shape).Idx → EReal)
    (j : (⟨2, ![M, N]⟩ : Shape).Idx) :
    ∑ k : d.contr.Idx, L (d.lhsIdx j k) * R (d.rhsIdx j k) = ∑ k : Fin K, L (ix2 (j 0) k) * R (ix2 k (j 1)) := by
  rw [← Equiv.sum_comp (contrEquiv1 d K h.rank h.size).symm]
  exact Finset.sum_congr rfl fun k _ => congrArg₂ (· * ·) (congrArg L (h.lhs_eq j k)) (congrArg R (h.rhs_eq j k))

/-- The kernel's matrix product into a zero accumulator, at the exact instance, read at an output index. -/
theorem matmul_zero_plain (h : PlainDot d) {φ₁ φ₂ : FTy} (prec : Option ContractPrecision)
    (L : FVec Ideal (⟨2, ![M, K]⟩ : Shape) φ₁) (R : FVec Ideal (⟨2, ![K, N]⟩ : Shape) φ₂) (j : (⟨2, ![M, N]⟩ : Shape).Idx) :
    FloatOps.matmul d prec L R (constant (⟨2, ![M, N]⟩ : Shape) .f32 0x00000000#32) j
      = ∑ k : Fin K, (L (ix2 (j 0) k) : EReal) * (R (ix2 k (j 1)) : EReal) :=
  (Ideal.matmul_constant_zero_apply d prec L R j).trans (sum_plain h L R j)

/-- The host's `dot_general`, at the exact instance, read at an output index. -/
theorem dotGeneral_plain (h : PlainDot d) {φ₁ φ₂ : FTy} (prec : Option ContractPrecision) (sched : HostSchedule)
    (L : FVec Ideal (⟨2, ![M, K]⟩ : Shape) φ₁) (R : FVec Ideal (⟨2, ![K, N]⟩ : Shape) φ₂) (j : (⟨2, ![M, N]⟩ : Shape).Idx) :
    FloatOps.dotGeneral d prec sched L R j
      = ∑ k : Fin K, (L (ix2 (j 0) k) : EReal) * (R (ix2 k (j 1)) : EReal) :=
  (Ideal.dotGeneral_apply d prec sched L R j).trans (sum_plain h L R j)

end Cert.LibDense

end
-- ==== Proof.Payload.lean ====
/-
  The kernel body's stored value, read at one entry of the output block.

  The body multiplies the row blocks of x, h and c (with the elements' format narrowed, which changes nothing over
  the extended reals) by the weight blocks, each product accumulated from zero, so each product read at row p,
  column q is the sum over k of (row p of the left block) k * (column q of the right block) k. The four bias rows
  are broadcast down the 512 rows, so at (p, q) they give their entry at column q. Everything else in the body is
  entry by entry. Hence the stored block at (p, q) is `Spec.cell` of rows p of the three row blocks, the old hidden
  entry, columns q of the nine weight blocks and the four bias entries of column q.
-/
import proofs.«167478_j35115652612130_1_alg».proof.Proof.Gen.KernelIdeal.Skeleton
import proofs.«167478_j35115652612130_1_alg».proof.Proof.Spec
import proofs.«167478_j35115652612130_1_alg».proof.Proof.LibDense
import Idealize.ShloMosaic.Lib.Pipeline.Value
import Idealize.ShloMosaic.Lib.ValueIdx
import Idealize.ShloMosaic.Lib.ValueLayout
import Idealize.ShloMosaic.PureOps.Ideal.Laws

noncomputable section

open scoped BigOperators

namespace Cert.Payload

open Cert.KernelIdeal Cert.KernelIdeal.Gen Idealize.ShloMosaic Idealize.ShloMosaic.ValueIdx Cert.Spec Cert.LibDense

/-- The (512 × 512) by (512 × 1024) product is a plain one: rows against columns over 512 terms. -/
theorem plainX : PlainDot (M := 512) (K := 512) (N := 1024) dot_S512x512_S512x1024_S512x1024_1_0_0_1_n_n :=
  ⟨rfl, rfl, fun _ _ => rfl, fun _ _ => rfl, fun _ _ => rfl, fun _ _ => rfl⟩

/-- The (512 × 1024) by (1024 × 1024) product is a plain one: rows against columns over 1024 terms. -/
theorem plainH : PlainDot (M := 512) (K := 1024) (N := 1024) dot_S512x1024_S1024x1024_S512x1024_1_0_0_1_n_n :=
  ⟨rfl, rfl, fun _ _ => rfl, fun _ _ => rfl, fun _ _ => rfl, fun _ _ => rfl⟩

/-- A product with the x block, accumulated from zero, at (p, q): row p of the left against column q of the right. -/
theorem mmX (a : FVec Ideal S512x512 .bf16) (w : FVec Ideal S512x1024 .bf16) (p : Fin 512) (q : Fin 1024) :
    matmul (φ₁ := .bf16) (φ₂ := .bf16) dot_S512x512_S512x1024_S512x1024_1_0_0_1_n_n none a
        (shapeCast S512x1024 w shapeCasts_S512x1024_S512x1024 : FVec Ideal S512x1024 .bf16) (constant S512x1024 .f32 0x00000000#32) (ix2 p q)
      = dot (fun k => (a (ix2 p k) : EReal)) (fun k => (w (ix2 k q) : EReal)) := by
  rw [shapeCast_self]
  exact matmul_zero_plain (φ₁ := .bf16) (φ₂ := .bf16) plainX none a w (ix2 p q)

/-- A product with the h or c block, accumulated from zero, at (p, q). -/
theorem mmH (a : FVec Ideal S512x1024 .bf16) (w : FVec Ideal S1024x1024 .bf16) (p : Fin 512) (q : Fin 1024) :
    matmul (φ₁ := .bf16) (φ₂ := .bf16) dot_S512x1024_S1024x1024_S512x1024_1_0_0_1_n_n none a
        (shapeCast S1024x1024 w shapeCasts_S1024x1024_S1024x1024 : FVec Ideal S1024x1024 .bf16) (constant S512x1024 .f32 0x00000000#32) (ix2 p q)
      = dot (fun k => (a (ix2 p k) : EReal)) (fun k => (w (ix2 k q) : EReal)) := by
  rw [shapeCast_self]
  exact matmul_zero_plain (φ₁ := .bf16) (φ₂ := .bf16) plainH none a w (ix2 p q)

/-- A bias row broadcast down the rows, at (p, q), is its entry at column q. -/
theorem bias_at (b : FVec Ideal S1x1024 .f32) (p : Fin 512) (q : Fin 1024) :
    broadcastTo S512x1024 (shapeCast S1x1024 b shapeCasts_S1x1024_S1x1024 : FVec Ideal S1x1024 .f32) broadcasts_S1x1024_S512x1024 (ix2 p q)
      = b (ix2 (0 : Fin 1) q) := by
  rw [shapeCast_self]
  exact broadcastTo_1b_ab_apply b broadcasts_S1x1024_S512x1024 p q

/-- The u gate's three products summed, at (p, q). -/
theorem ulin_at (x0 : Vec Ideal S512x512 .f32) (x1 x2 : Vec Ideal S512x1024 .f32) (x4 : Vec Ideal S512x1024 .bf16)
    (x8 x9 : Vec Ideal S1024x1024 .bf16) (p : Fin 512) (q : Fin 1024) :
    k0_pay6 x0 x1 x2 x4 x8 x9 (ix2 p q)
      = dot (fun k => (x0 (ix2 p k) : EReal)) (fun k => (x4 (ix2 k q) : EReal))
        + dot (fun k => (x1 (ix2 p k) : EReal)) (fun k => (x8 (ix2 k q) : EReal))
        + dot (fun k => (x2 (ix2 p k) : EReal)) (fun k => (x9 (ix2 k q) : EReal)) := by
  unfold k0_pay6
  exact congrArg₂ (· + ·) (congrArg₂ (· + ·) (mmX (k0_pay2 x0) x4 p q) (mmH (k0_pay3 x1) x8 p q)) (mmH (k0_pay4 x2) x9 p q)

/-- The r gate, at (p, q). -/
theorem r_at (x0 : Vec Ideal S512x512 .f32) (x1 x2 : Vec Ideal S512x1024 .f32) (x3 : Vec Ideal S512x1024 .bf16)
    (x6 x7 : Vec Ideal S1024x1024 .bf16) (x12 : Vec Ideal S1x1024 .f32) (p : Fin 512) (q : Fin 1024) :
    k0_pay5 x0 x1 x2 x3 x6 x7 x12 (ix2 p q)
      = Ideal.logistic (dot (fun k => (x0 (ix2 p k) : EReal)) (fun k => (x3 (ix2 k q) : EReal))
        + dot (fun k => (x1 (ix2 p k) : EReal)) (fun k => (x6 (ix2 k q) : EReal))
        + dot (fun k => (x2 (ix2 p k) : EReal)) (fun k => (x7 (ix2 k q) : EReal))
        + (x12 (ix2 (0 : Fin 1) q) : EReal)) := by
  unfold k0_pay5
  exact congrArg Ideal.logistic (congrArg₂ (· + ·)
    (congrArg₂ (· + ·) (congrArg₂ (· + ·) (mmX (k0_pay2 x0) x3 p q) (mmH (k0_pay3 x1) x6 p q)) (mmH (k0_pay4 x2) x7 p q))
    (bias_at x12 p q))

/-- THE STORED BLOCK AT (p, q): the cell of rows p, columns q and the bias entries of column q. -/
theorem pay_at (x0 : Vec Ideal S512x512 .f32) (x1 x2 : Vec Ideal S512x1024 .f32) (x3 x4 x5 : Vec Ideal S512x1024 .bf16)
    (x6 x7 x8 x9 x10 x11 : Vec Ideal S1024x1024 .bf16) (x12 x13 x14 x15 : Vec Ideal S1x1024 .f32)
    (p : Fin 512) (q : Fin 1024) :
    k0_pay1 (k0_pay2 x0) x1 (k0_pay3 x1) (k0_pay4 x2) (k0_pay5 x0 x1 x2 x3 x6 x7 x12) (k0_pay6 x0 x1 x2 x4 x8 x9)
        x13 x10 x11 x15 x5 x14 (ix2 p q)
      = cell (fun k => (x0 (ix2 p k) : EReal)) (fun k => (x1 (ix2 p k) : EReal)) (fun k => (x2 (ix2 p k) : EReal))
          (x1 (ix2 p q) : EReal)
          (fun k => (x3 (ix2 k q) : EReal)) (fun k => (x4 (ix2 k q) : EReal)) (fun k => (x5 (ix2 k q) : EReal))
          (fun k => (x6 (ix2 k q) : EReal)) (fun k => (x7 (ix2 k q) : EReal))
          (fun k => (x8 (ix2 k q) : EReal)) (fun k => (x9 (ix2 k q) : EReal))
          (fun k => (x10 (ix2 k q) : EReal)) (fun k => (x11 (ix2 k q) : EReal))
          (x12 (ix2 (0 : Fin 1) q) : EReal) (x13 (ix2 (0 : Fin 1) q) : EReal)
          (x14 (ix2 (0 : Fin 1) q) : EReal) (x15 (ix2 (0 : Fin 1) q) : EReal) := by
  have hu : (k0_pay6 x0 x1 x2 x4 x8 x9 (ix2 p q) : EReal)
        + (broadcastTo S512x1024 (shapeCast S1x1024 x13 shapeCasts_S1x1024_S1x1024 : FVec Ideal S1x1024 .f32)
            broadcasts_S1x1024_S512x1024 (ix2 p q) : EReal)
      = dot (fun k => (x0 (ix2 p k) : EReal)) (fun k => (x4 (ix2 k q) : EReal))
        + dot (fun k => (x1 (ix2 p k) : EReal)) (fun k => (x8 (ix2 k q) : EReal))
        + dot (fun k => (x2 (ix2 p k) : EReal)) (fun k => (x9 (ix2 k q) : EReal))
        + (x13 (ix2 (0 : Fin 1) q) : EReal) :=
    congrArg₂ (· + ·) (ulin_at x0 x1 x2 x4 x8 x9 p q) (bias_at x13 p q)
  unfold k0_pay1 cell
  exact congrArg₂ (· + ·)
    (congrArg₂ (· * ·) (congrArg Ideal.logistic hu) rfl)
    (congrArg₂ (· * ·) (congrArg (fun z => one - Ideal.logistic z) hu)
      (congrArg Ideal.tanh (congrArg₂ (· + ·)
        (congrArg₂ (· + ·) (mmX (k0_pay2 x0) x5 p q) (bias_at x14 p q))
        (congrArg₂ (· * ·) (r_at x0 x1 x2 x3 x6 x7 x12 p q)
          (congrArg₂ (· + ·) (congrArg₂ (· + ·) (mmH (k0_pay3 x1) x10 p q) (mmH (k0_pay4 x2) x11 p q)) (bias_at x15 p q))))))

end Cert.Payload

end
-- ==== Proof.Blocks.lean ====
/-
  From the blocks to the array.

  The grid has 64 points; point t works on rows 512 t … 512 t + 511 of x, h, c and of the result, and on the whole
  of every weight block and bias row (their block index is 0 at every point). So what point t writes back at entry
  (p, q) of its block is the cell of row 512 t + p and column q, which is the specification's array `GA` read
  through that block; and since row r lies in the block of point r / 512, the blocks cover the result array, which
  therefore ends as `GA` of the sixteen arrays the region finds.
-/
import proofs.«167478_j35115652612130_1_alg».proof.Proof.Gen.KernelIdeal.Value
import proofs.«167478_j35115652612130_1_alg».proof.Proof.Payload
import Idealize.ShloMosaic.Lib.Pipeline.Value
import Idealize.ShloMosaic.Lib.ValueIdx

set_option maxRecDepth 16384

noncomputable section

namespace Cert.Blocks

open Cert.KernelIdeal Cert.KernelIdeal.Gen Idealize.ShloMosaic Idealize.ShloMosaic.TcCoe Idealize.SL.Sem
open Idealize.ShloMosaic.ValueIdx Cert.Spec
open Idealize.ShloMosaic.Pipeline (Dat)

theorem hz : (![0, 0] : Fin 2 → Nat) = fun _ => 0 := funext fun a => by fin_cases a <;> rfl

/-- The block index maps, decided over the 64 points: the row windows and the result move with the point, every
    other window stays at block (0, 0). -/
theorem idx_facts : ∀ t : Fin cfg0.N, win0_16.index t (0 : Fin 2) = t.val
    ∧ win0_16.index t (1 : Fin 2) = 0
    ∧ win0_0.index t (0 : Fin 2) = t.val
    ∧ win0_0.index t (1 : Fin 2) = 0
    ∧ win0_1.index t (0 : Fin 2) = t.val
    ∧ win0_1.index t (1 : Fin 2) = 0
    ∧ win0_2.index t (0 : Fin 2) = t.val
    ∧ win0_2.index t (1 : Fin 2) = 0
    ∧ win0_3.index t (0 : Fin 2) = 0
    ∧ win0_3.index t (1 : Fin 2) = 0
    ∧ win0_4.index t (0 : Fin 2) = 0
    ∧ win0_4.index t (1 : Fin 2) = 0
    ∧ win0_5.index t (0 : Fin 2) = 0
    ∧ win0_5.index t (1 : Fin 2) = 0
    ∧ win0_6.index t (0 : Fin 2) = 0
    ∧ win0_6.index t (1 : Fin 2) = 0
    ∧ win0_7.index t (0 : Fin 2) = 0
    ∧ win0_7.index t (1 : Fin 2) = 0
    ∧ win0_8.index t (0 : Fin 2) = 0
    ∧ win0_8.index t (1 : Fin 2) = 0
    ∧ win0_9.index t (0 : Fin 2) = 0
    ∧ win0_9.index t (1 : Fin 2) = 0
    ∧ win0_10.index t (0 : Fin 2) = 0
    ∧ win0_10.index t (1 : Fin 2) = 0
    ∧ win0_11.index t (0 : Fin 2) = 0
    ∧ win0_11.index t (1 : Fin 2) = 0
    ∧ win0_12.index t (0 : Fin 2) = 0
    ∧ win0_12.index t (1 : Fin 2) = 0
    ∧ win0_13.index t (0 : Fin 2) = 0
    ∧ win0_13.index t (1 : Fin 2) = 0
    ∧ win0_14.index t (0 : Fin 2) = 0
    ∧ win0_14.index t (1 : Fin 2) = 0
    ∧ win0_15.index t (0 : Fin 2) = 0
    ∧ win0_15.index t (1 : Fin 2) = 0 :=
  (by decide +kernel : ∀ t : Fin grid0.N, _)

theorem t_lt (t : Fin cfg0.N) : t.val < 64 := by
  have h : t.val < grid0.N := t.isLt
  rwa [N_0] at h

/-- Row p of point t's block is row 512 t + p of the array. -/
def rowOf (t : Fin cfg0.N) (p : Fin 512) : Fin 32768 := ⟨512 * t.val + p.val, by have := t_lt t; have := p.isLt; omega⟩

/-- Row block 0 of point t at (p, k) is the array at row 512 t + p, column k. -/
theorem rd0 (A : FVec Ideal S32768x512 .f32) (t : Fin cfg0.N) (p : Fin 512) (k : Fin 512) :
    ((cfg0.win 0).blk t).view.read (Elt Ideal) A (ix2 p k) = A (ix2 (rowOf t p) k) := by
  obtain ⟨e16_0, e16_1, e0_0, e0_1, e1_0, e1_1, e2_0, e2_1, e3_0, e3_1, e4_0, e4_1, e5_0, e5_1, e6_0, e6_1, e7_0, e7_1, e8_0, e8_1, e9_0, e9_1, e10_0, e10_1, e11_0, e11_1, e12_0, e12_1, e13_0, e13_1, e14_0, e14_1, e15_0, e15_1⟩ := idx_facts t
  show A (((cfg0.win 0).blk t).view.emb (ix2 p k)) = _
  refine congrArg A (funext fun a => Fin.ext ?_)
  match a with
  | ⟨0, _⟩ => show win0_0.index t (0 : Fin 2) * 512 + 1 * p.val = 512 * t.val + p.val; omega
  | ⟨1, _⟩ => show win0_0.index t (1 : Fin 2) * 512 + 1 * k.val = k.val; omega

/-- Row block 1 of point t at (p, k) is the array at row 512 t + p, column k. -/
theorem rd1 (A : FVec Ideal S32768x1024 .f32) (t : Fin cfg0.N) (p : Fin 512) (k : Fin 1024) :
    ((cfg0.win 1).blk t).view.read (Elt Ideal) A (ix2 p k) = A (ix2 (rowOf t p) k) := by
  obtain ⟨e16_0, e16_1, e0_0, e0_1, e1_0, e1_1, e2_0, e2_1, e3_0, e3_1, e4_0, e4_1, e5_0, e5_1, e6_0, e6_1, e7_0, e7_1, e8_0, e8_1, e9_0, e9_1, e10_0, e10_1, e11_0, e11_1, e12_0, e12_1, e13_0, e13_1, e14_0, e14_1, e15_0, e15_1⟩ := idx_facts t
  show A (((cfg0.win 1).blk t).view.emb (ix2 p k)) = _
  refine congrArg A (funext fun a => Fin.ext ?_)
  match a with
  | ⟨0, _⟩ => show win0_1.index t (0 : Fin 2) * 512 + 1 * p.val = 512 * t.val + p.val; omega
  | ⟨1, _⟩ => show win0_1.index t (1 : Fin 2) * 1024 + 1 * k.val = k.val; omega

/-- Row block 2 of point t at (p, k) is the array at row 512 t + p, column k. -/
theorem rd2 (A : FVec Ideal S32768x1024 .f32) (t : Fin cfg0.N) (p : Fin 512) (k : Fin 1024) :
    ((cfg0.win 2).blk t).view.read (Elt Ideal) A (ix2 p k) = A (ix2 (rowOf t p) k) := by
  obtain ⟨e16_0, e16_1, e0_0, e0_1, e1_0, e1_1, e2_0, e2_1, e3_0, e3_1, e4_0, e4_1, e5_0, e5_1, e6_0, e6_1, e7_0, e7_1, e8_0, e8_1, e9_0, e9_1, e10_0, e10_1, e11_0, e11_1, e12_0, e12_1, e13_0, e13_1, e14_0, e14_1, e15_0, e15_1⟩ := idx_facts t
  show A (((cfg0.win 2).blk t).view.emb (ix2 p k)) = _
  refine congrArg A (funext fun a => Fin.ext ?_)
  match a with
  | ⟨0, _⟩ => show win0_2.index t (0 : Fin 2) * 512 + 1 * p.val = 512 * t.val + p.val; omega
  | ⟨1, _⟩ => show win0_2.index t (1 : Fin 2) * 1024 + 1 * k.val = k.val; omega

/-- Block 3 is the whole array at every point. -/
theorem rd3 (A : FVec Ideal S512x1024 .bf16) (t : Fin cfg0.N) (y : S512x1024.Idx) :
    ((cfg0.win 3).blk t).view.read (Elt Ideal) A y = A y := by
  obtain ⟨e16_0, e16_1, e0_0, e0_1, e1_0, e1_1, e2_0, e2_1, e3_0, e3_1, e4_0, e4_1, e5_0, e5_1, e6_0, e6_1, e7_0, e7_1, e8_0, e8_1, e9_0, e9_1, e10_0, e10_1, e11_0, e11_1, e12_0, e12_1, e13_0, e13_1, e14_0, e14_1, e15_0, e15_1⟩ := idx_facts t
  show A (((cfg0.win 3).blk t).view.emb y) = _
  refine congrArg A (funext fun a => Fin.ext ?_)
  match a with
  | ⟨0, _⟩ => show win0_3.index t (0 : Fin 2) * 512 + 1 * (y 0).val = (y 0).val; omega
  | ⟨1, _⟩ => show win0_3.index t (1 : Fin 2) * 1024 + 1 * (y 1).val = (y 1).val; omega

/-- Block 4 is the whole array at every point. -/
theorem rd4 (A : FVec Ideal S512x1024 .bf16) (t : Fin cfg0.N) (y : S512x1024.Idx) :
    ((cfg0.win 4).blk t).view.read (Elt Ideal) A y = A y := by
  obtain ⟨e16_0, e16_1, e0_0, e0_1, e1_0, e1_1, e2_0, e2_1, e3_0, e3_1, e4_0, e4_1, e5_0, e5_1, e6_0, e6_1, e7_0, e7_1, e8_0, e8_1, e9_0, e9_1, e10_0, e10_1, e11_0, e11_1, e12_0, e12_1, e13_0, e13_1, e14_0, e14_1, e15_0, e15_1⟩ := idx_facts t
  show A (((cfg0.win 4).blk t).view.emb y) = _
  refine congrArg A (funext fun a => Fin.ext ?_)
  match a with
  | ⟨0, _⟩ => show win0_4.index t (0 : Fin 2) * 512 + 1 * (y 0).val = (y 0).val; omega
  | ⟨1, _⟩ => show win0_4.index t (1 : Fin 2) * 1024 + 1 * (y 1).val = (y 1).val; omega

/-- Block 5 is the whole array at every point. -/
theorem rd5 (A : FVec Ideal S512x1024 .bf16) (t : Fin cfg0.N) (y : S512x1024.Idx) :
    ((cfg0.win 5).blk t).view.read (Elt Ideal) A y = A y := by
  obtain ⟨e16_0, e16_1, e0_0, e0_1, e1_0, e1_1, e2_0, e2_1, e3_0, e3_1, e4_0, e4_1, e5_0, e5_1, e6_0, e6_1, e7_0, e7_1, e8_0, e8_1, e9_0, e9_1, e10_0, e10_1, e11_0, e11_1, e12_0, e12_1, e13_0, e13_1, e14_0, e14_1, e15_0, e15_1⟩ := idx_facts t
  show A (((cfg0.win 5).blk t).view.emb y) = _
  refine congrArg A (funext fun a => Fin.ext ?_)
  match a with
  | ⟨0, _⟩ => show win0_5.index t (0 : Fin 2) * 512 + 1 * (y 0).val = (y 0).val; omega
  | ⟨1, _⟩ => show win0_5.index t (1 : Fin 2) * 1024 + 1 * (y 1).val = (y 1).val; omega

/-- Block 6 is the whole array at every point. -/
theorem rd6 (A : FVec Ideal S1024x1024 .bf16) (t : Fin cfg0.N) (y : S1024x1024.Idx) :
    ((cfg0.win 6).blk t).view.read (Elt Ideal) A y = A y := by
  obtain ⟨e16_0, e16_1, e0_0, e0_1, e1_0, e1_1, e2_0, e2_1, e3_0, e3_1, e4_0, e4_1, e5_0, e5_1, e6_0, e6_1, e7_0, e7_1, e8_0, e8_1, e9_0, e9_1, e10_0, e10_1, e11_0, e11_1, e12_0, e12_1, e13_0, e13_1, e14_0, e14_1, e15_0, e15_1⟩ := idx_facts t
  show A (((cfg0.win 6).blk t).view.emb y) = _
  refine congrArg A (funext fun a => Fin.ext ?_)
  match a with
  | ⟨0, _⟩ => show win0_6.index t (0 : Fin 2) * 1024 + 1 * (y 0).val = (y 0).val; omega
  | ⟨1, _⟩ => show win0_6.index t (1 : Fin 2) * 1024 + 1 * (y 1).val = (y 1).val; omega

/-- Block 7 is the whole array at every point. -/
theorem rd7 (A : FVec Ideal S1024x1024 .bf16) (t : Fin cfg0.N) (y : S1024x1024.Idx) :
    ((cfg0.win 7).blk t).view.read (Elt Ideal) A y = A y := by
  obtain ⟨e16_0, e16_1, e0_0, e0_1, e1_0, e1_1, e2_0, e2_1, e3_0, e3_1, e4_0, e4_1, e5_0, e5_1, e6_0, e6_1, e7_0, e7_1, e8_0, e8_1, e9_0, e9_1, e10_0, e10_1, e11_0, e11_1, e12_0, e12_1, e13_0, e13_1, e14_0, e14_1, e15_0, e15_1⟩ := idx_facts t
  show A (((cfg0.win 7).blk t).view.emb y) = _
  refine congrArg A (funext fun a => Fin.ext ?_)
  match a with
  | ⟨0, _⟩ => show win0_7.index t (0 : Fin 2) * 1024 + 1 * (y 0).val = (y 0).val; omega
  | ⟨1, _⟩ => show win0_7.index t (1 : Fin 2) * 1024 + 1 * (y 1).val = (y 1).val; omega

/-- Block 8 is the whole array at every point. -/
theorem rd8 (A : FVec Ideal S1024x1024 .bf16) (t : Fin cfg0.N) (y : S1024x1024.Idx) :
    ((cfg0.win 8).blk t).view.read (Elt Ideal) A y = A y := by
  obtain ⟨e16_0, e16_1, e0_0, e0_1, e1_0, e1_1, e2_0, e2_1, e3_0, e3_1, e4_0, e4_1, e5_0, e5_1, e6_0, e6_1, e7_0, e7_1, e8_0, e8_1, e9_0, e9_1, e10_0, e10_1, e11_0, e11_1, e12_0, e12_1, e13_0, e13_1, e14_0, e14_1, e15_0, e15_1⟩ := idx_facts t
  show A (((cfg0.win 8).blk t).view.emb y) = _
  refine congrArg A (funext fun a => Fin.ext ?_)
  match a with
  | ⟨0, _⟩ => show win0_8.index t (0 : Fin 2) * 1024 + 1 * (y 0).val = (y 0).val; omega
  | ⟨1, _⟩ => show win0_8.index t (1 : Fin 2) * 1024 + 1 * (y 1).val = (y 1).val; omega

/-- Block 9 is the whole array at every point. -/
theorem rd9 (A : FVec Ideal S1024x1024 .bf16) (t : Fin cfg0.N) (y : S1024x1024.Idx) :
    ((cfg0.win 9).blk t).view.read (Elt Ideal) A y = A y := by
  obtain ⟨e16_0, e16_1, e0_0, e0_1, e1_0, e1_1, e2_0, e2_1, e3_0, e3_1, e4_0, e4_1, e5_0, e5_1, e6_0, e6_1, e7_0, e7_1, e8_0, e8_1, e9_0, e9_1, e10_0, e10_1, e11_0, e11_1, e12_0, e12_1, e13_0, e13_1, e14_0, e14_1, e15_0, e15_1⟩ := idx_facts t
  show A (((cfg0.win 9).blk t).view.emb y) = _
  refine congrArg A (funext fun a => Fin.ext ?_)
  match a with
  | ⟨0, _⟩ => show win0_9.index t (0 : Fin 2) * 1024 + 1 * (y 0).val = (y 0).val; omega
  | ⟨1, _⟩ => show win0_9.index t (1 : Fin 2) * 1024 + 1 * (y 1).val = (y 1).val; omega

/-- Block 10 is the whole array at every point. -/
theorem rd10 (A : FVec Ideal S1024x1024 .bf16) (t : Fin cfg0.N) (y : S1024x1024.Idx) :
    ((cfg0.win 10).blk t).view.read (Elt Ideal) A y = A y := by
  obtain ⟨e16_0, e16_1, e0_0, e0_1, e1_0, e1_1, e2_0, e2_1, e3_0, e3_1, e4_0, e4_1, e5_0, e5_1, e6_0, e6_1, e7_0, e7_1, e8_0, e8_1, e9_0, e9_1, e10_0, e10_1, e11_0, e11_1, e12_0, e12_1, e13_0, e13_1, e14_0, e14_1, e15_0, e15_1⟩ := idx_facts t
  show A (((cfg0.win 10).blk t).view.emb y) = _
  refine congrArg A (funext fun a => Fin.ext ?_)
  match a with
  | ⟨0, _⟩ => show win0_10.index t (0 : Fin 2) * 1024 + 1 * (y 0).val = (y 0).val; omega
  | ⟨1, _⟩ => show win0_10.index t (1 : Fin 2) * 1024 + 1 * (y 1).val = (y 1).val; omega

/-- Block 11 is the whole array at every point. -/
theorem rd11 (A : FVec Ideal S1024x1024 .bf16) (t : Fin cfg0.N) (y : S1024x1024.Idx) :
    ((cfg0.win 11).blk t).view.read (Elt Ideal) A y = A y := by
  obtain ⟨e16_0, e16_1, e0_0, e0_1, e1_0, e1_1, e2_0, e2_1, e3_0, e3_1, e4_0, e4_1, e5_0, e5_1, e6_0, e6_1, e7_0, e7_1, e8_0, e8_1, e9_0, e9_1, e10_0, e10_1, e11_0, e11_1, e12_0, e12_1, e13_0, e13_1, e14_0, e14_1, e15_0, e15_1⟩ := idx_facts t
  show A (((cfg0.win 11).blk t).view.emb y) = _
  refine congrArg A (funext fun a => Fin.ext ?_)
  match a with
  | ⟨0, _⟩ => show win0_11.index t (0 : Fin 2) * 1024 + 1 * (y 0).val = (y 0).val; omega
  | ⟨1, _⟩ => show win0_11.index t (1 : Fin 2) * 1024 + 1 * (y 1).val = (y 1).val; omega

/-- Block 12 is the whole array at every point. -/
theorem rd12 (A : FVec Ideal S1x1024 .f32) (t : Fin cfg0.N) (y : S1x1024.Idx) :
    ((cfg0.win 12).blk t).view.read (Elt Ideal) A y = A y := by
  obtain ⟨e16_0, e16_1, e0_0, e0_1, e1_0, e1_1, e2_0, e2_1, e3_0, e3_1, e4_0, e4_1, e5_0, e5_1, e6_0, e6_1, e7_0, e7_1, e8_0, e8_1, e9_0, e9_1, e10_0, e10_1, e11_0, e11_1, e12_0, e12_1, e13_0, e13_1, e14_0, e14_1, e15_0, e15_1⟩ := idx_facts t
  show A (((cfg0.win 12).blk t).view.emb y) = _
  refine congrArg A (funext fun a => Fin.ext ?_)
  match a with
  | ⟨0, _⟩ => show win0_12.index t (0 : Fin 2) * 1 + 1 * (y 0).val = (y 0).val; omega
  | ⟨1, _⟩ => show win0_12.index t (1 : Fin 2) * 1024 + 1 * (y 1).val = (y 1).val; omega

/-- Block 13 is the whole array at every point. -/
theorem rd13 (A : FVec Ideal S1x1024 .f32) (t : Fin cfg0.N) (y : S1x1024.Idx) :
    ((cfg0.win 13).blk t).view.read (Elt Ideal) A y = A y := by
  obtain ⟨e16_0, e16_1, e0_0, e0_1, e1_0, e1_1, e2_0, e2_1, e3_0, e3_1, e4_0, e4_1, e5_0, e5_1, e6_0, e6_1, e7_0, e7_1, e8_0, e8_1, e9_0, e9_1, e10_0, e10_1, e11_0, e11_1, e12_0, e12_1, e13_0, e13_1, e14_0, e14_1, e15_0, e15_1⟩ := idx_facts t
  show A (((cfg0.win 13).blk t).view.emb y) = _
  refine congrArg A (funext fun a => Fin.ext ?_)
  match a with
  | ⟨0, _⟩ => show win0_13.index t (0 : Fin 2) * 1 + 1 * (y 0).val = (y 0).val; omega
  | ⟨1, _⟩ => show win0_13.index t (1 : Fin 2) * 1024 + 1 * (y 1).val = (y 1).val; omega

/-- Block 14 is the whole array at every point. -/
theorem rd14 (A : FVec Ideal S1x1024 .f32) (t : Fin cfg0.N) (y : S1x1024.Idx) :
    ((cfg0.win 14).blk t).view.read (Elt Ideal) A y = A y := by
  obtain ⟨e16_0, e16_1, e0_0, e0_1, e1_0, e1_1, e2_0, e2_1, e3_0, e3_1, e4_0, e4_1, e5_0, e5_1, e6_0, e6_1, e7_0, e7_1, e8_0, e8_1, e9_0, e9_1, e10_0, e10_1, e11_0, e11_1, e12_0, e12_1, e13_0, e13_1, e14_0, e14_1, e15_0, e15_1⟩ := idx_facts t
  show A (((cfg0.win 14).blk t).view.emb y) = _
  refine congrArg A (funext fun a => Fin.ext ?_)
  match a with
  | ⟨0, _⟩ => show win0_14.index t (0 : Fin 2) * 1 + 1 * (y 0).val = (y 0).val; omega
  | ⟨1, _⟩ => show win0_14.index t (1 : Fin 2) * 1024 + 1 * (y 1).val = (y 1).val; omega

/-- Block 15 is the whole array at every point. -/
theorem rd15 (A : FVec Ideal S1x1024 .f32) (t : Fin cfg0.N) (y : S1x1024.Idx) :
    ((cfg0.win 15).blk t).view.read (Elt Ideal) A y = A y := by
  obtain ⟨e16_0, e16_1, e0_0, e0_1, e1_0, e1_1, e2_0, e2_1, e3_0, e3_1, e4_0, e4_1, e5_0, e5_1, e6_0, e6_1, e7_0, e7_1, e8_0, e8_1, e9_0, e9_1, e10_0, e10_1, e11_0, e11_1, e12_0, e12_1, e13_0, e13_1, e14_0, e14_1, e15_0, e15_1⟩ := idx_facts t
  show A (((cfg0.win 15).blk t).view.emb y) = _
  refine congrArg A (funext fun a => Fin.ext ?_)
  match a with
  | ⟨0, _⟩ => show win0_15.index t (0 : Fin 2) * 1 + 1 * (y 0).val = (y 0).val; omega
  | ⟨1, _⟩ => show win0_15.index t (1 : Fin 2) * 1024 + 1 * (y 1).val = (y 1).val; omega

/-- Entry (p, q) of point t's result block sits at row 512 t + p, column q of the result array. -/
theorem emb16 (t : Fin cfg0.N) (p : Fin 512) (q : Fin 1024) :
    ((cfg0.win 16).blk t).view.emb (ix2 p q) = ix2 (rowOf t p) q := by
  obtain ⟨e16_0, e16_1, e0_0, e0_1, e1_0, e1_1, e2_0, e2_1, e3_0, e3_1, e4_0, e4_1, e5_0, e5_1, e6_0, e6_1, e7_0, e7_1, e8_0, e8_1, e9_0, e9_1, e10_0, e10_1, e11_0, e11_1, e12_0, e12_1, e13_0, e13_1, e14_0, e14_1, e15_0, e15_1⟩ := idx_facts t
  refine funext fun a => Fin.ext ?_
  match a with
  | ⟨0, _⟩ => show win0_16.index t (0 : Fin 2) * 512 + 1 * p.val = 512 * t.val + p.val; omega
  | ⟨1, _⟩ => show win0_16.index t (1 : Fin 2) * 1024 + 1 * q.val = q.val; omega

/-- OVER ANY SIXTEEN ARRAYS: the value the body stores, computed from point t's blocks of the arrays, is at every
    entry of the block the specification's array at the place the result block puts that entry. -/
theorem block_eq (A0 : FVec Ideal S32768x512 .f32) (A1 A2 : FVec Ideal S32768x1024 .f32) (A3 A4 A5 : FVec Ideal S512x1024 .bf16)
    (A6 A7 A8 A9 A10 A11 : FVec Ideal S1024x1024 .bf16) (A12 A13 A14 A15 : FVec Ideal S1x1024 .f32)
    (t : Fin cfg0.N) (j : S512x1024.Idx) :
    k0_pay1 (k0_pay2 (((cfg0.win 0).blk t).view.read (Elt Ideal) A0)) (((cfg0.win 1).blk t).view.read (Elt Ideal) A1) (k0_pay3 (((cfg0.win 1).blk t).view.read (Elt Ideal) A1)) (k0_pay4 (((cfg0.win 2).blk t).view.read (Elt Ideal) A2))
        (k0_pay5 (((cfg0.win 0).blk t).view.read (Elt Ideal) A0) (((cfg0.win 1).blk t).view.read (Elt Ideal) A1) (((cfg0.win 2).blk t).view.read (Elt Ideal) A2) (((cfg0.win 3).blk t).view.read (Elt Ideal) A3) (((cfg0.win 6).blk t).view.read (Elt Ideal) A6) (((cfg0.win 7).blk t).view.read (Elt Ideal) A7) (((cfg0.win 12).blk t).view.read (Elt Ideal) A12))
        (k0_pay6 (((cfg0.win 0).blk t).view.read (Elt Ideal) A0) (((cfg0.win 1).blk t).view.read (Elt Ideal) A1) (((cfg0.win 2).blk t).view.read (Elt Ideal) A2) (((cfg0.win 4).blk t).view.read (Elt Ideal) A4) (((cfg0.win 8).blk t).view.read (Elt Ideal) A8) (((cfg0.win 9).blk t).view.read (Elt Ideal) A9))
        (((cfg0.win 13).blk t).view.read (Elt Ideal) A13) (((cfg0.win 10).blk t).view.read (Elt Ideal) A10) (((cfg0.win 11).blk t).view.read (Elt Ideal) A11) (((cfg0.win 15).blk t).view.read (Elt Ideal) A15) (((cfg0.win 5).blk t).view.read (Elt Ideal) A5) (((cfg0.win 14).blk t).view.read (Elt Ideal) A14) j
      = GA A0 A1 A2 A3 A4 A5 A6 A7 A8 A9 A10 A11 A12 A13 A14 A15 (((cfg0.win 16).blk t).view.emb j) := by
  obtain ⟨p, q, rfl⟩ : ∃ (p : Fin 512) (q : Fin 1024), j = ix2 p q := ⟨j 0, j 1, eq_ix2 j⟩
  refine (Payload.pay_at _ _ _ _ _ _ _ _ _ _ _ _ _ _ _ _ p q).trans ?_
  rw [emb16 t p q]
  simp only [rd0 A0 t, rd1 A1 t, rd2 A2 t, rd3 A3 t, rd4 A4 t, rd5 A5 t, rd6 A6 t, rd7 A7 t, rd8 A8 t, rd9 A9 t,
    rd10 A10 t, rd11 A11 t, rd12 A12 t, rd13 A13 t, rd14 A14 t, rd15 A15 t]
  rfl

variable (m : (ℓ : Loc nD τ sig) → Buf (Elt Ideal) ℓ)

/-- The specification's result array over the sixteen arrays as the region finds them. -/
def whole (c : Dev nD) : FVec Ideal S32768x1024 .f32 :=
  GA (V m c (Pipeline.arrRef spec0 0)) (V m c (Pipeline.arrRef spec0 1)) (V m c (Pipeline.arrRef spec0 2)) (V m c (Pipeline.arrRef spec0 3)) (V m c (Pipeline.arrRef spec0 4)) (V m c (Pipeline.arrRef spec0 5)) (V m c (Pipeline.arrRef spec0 6)) (V m c (Pipeline.arrRef spec0 7)) (V m c (Pipeline.arrRef spec0 8)) (V m c (Pipeline.arrRef spec0 9)) (V m c (Pipeline.arrRef spec0 10)) (V m c (Pipeline.arrRef spec0 11)) (V m c (Pipeline.arrRef spec0 12)) (V m c (Pipeline.arrRef spec0 13)) (V m c (Pipeline.arrRef spec0 14)) (V m c (Pipeline.arrRef spec0 15))

/-- WHAT POINT t WRITES BACK is block t of `whole`. -/
theorem flushed_eq (c : Dev nD) (t : Fin cfg0.N) :
    (dats m 0 c).flushed 16 t = ((cfg0.win 16).blk t).view.read (Elt Ideal) (whole m c) := by
  rw [Value.flushed16]
  unfold out0_16
  rw [View.canon_unit_zero hz]
  simp only [View.ld_unit_zero (S := S512x512) hz, View.ld_unit_zero (S := S512x1024) hz,
    View.ld_unit_zero (S := S1024x1024) hz, View.ld_unit_zero (S := S1x1024) hz]
  funext j
  unfold iblk whole
  exact block_eq _ _ _ _ _ _ _ _ _ _ _ _ _ _ _ _ t ((cfg0.win 16).xinj (grid0.coords t) j)

/-- An index of the result array is in point t's block iff its row is among the block's 512 rows. -/
theorem mem_blk (t : Fin cfg0.N) (i : S32768x1024.Idx) :
    i ∈ ((cfg0.win 16).blk t).view.set ↔ ∀ a : Fin 2, win0_16.index t a * S512x1024.size a ≤ (i a).val ∧ (i a).val < win0_16.index t a * S512x1024.size a + S512x1024.size a := by
  show i ∈ ((View.whole main_v21).slice (win0_16.rect t)).set ↔ _
  rw [View.set_slice_whole, Rect.mem_set_unit]
  exact Iff.rfl

/-- Row r is in the block of point r / 512: the blocks cover the result array. -/
theorem cover (i : S32768x1024.Idx) :
    ∃ t : Fin cfg0.N, (cfg0.win 16).flush t = true ∧ i ∈ ((cfg0.win 16).blk t).view.set := by
  have hi0 : (i 0).val < 32768 := (i 0).isLt
  have hi1 : (i 1).val < 1024 := (i 1).isLt
  have hN : (i 0).val / 512 < cfg0.N := by
    show (i 0).val / 512 < grid0.N
    rw [N_0]; omega
  refine ⟨⟨(i 0).val / 512, hN⟩, flush0_16 _, ?_⟩
  obtain ⟨e16_0, e16_1, e0_0, e0_1, e1_0, e1_1, e2_0, e2_1, e3_0, e3_1, e4_0, e4_1, e5_0, e5_1, e6_0, e6_1, e7_0, e7_1, e8_0, e8_1, e9_0, e9_1, e10_0, e10_1, e11_0, e11_1, e12_0, e12_1, e13_0, e13_1, e14_0, e14_1, e15_0, e15_1⟩ := idx_facts ⟨(i 0).val / 512, hN⟩
  rw [mem_blk]
  intro a
  match a with
  | ⟨0, _⟩ =>
    show win0_16.index ⟨(i 0).val / 512, hN⟩ (0 : Fin 2) * 512 ≤ (i 0).val ∧ (i 0).val < win0_16.index ⟨(i 0).val / 512, hN⟩ (0 : Fin 2) * 512 + 512
    rw [e16_0]
    show (i 0).val / 512 * 512 ≤ (i 0).val ∧ (i 0).val < (i 0).val / 512 * 512 + 512
    omega
  | ⟨1, _⟩ =>
    show win0_16.index ⟨(i 0).val / 512, hN⟩ (1 : Fin 2) * 1024 ≤ (i 1).val ∧ (i 1).val < win0_16.index ⟨(i 0).val / 512, hN⟩ (1 : Fin 2) * 1024 + 1024
    rw [e16_1]
    omega

/-- THE RESULT ARRAY after the run is `whole`. -/
theorem final (c : Dev nD) : (dats m 0 c).arrAt 16 cfg0.N = whole m c :=
  (dats m 0 c).arrAt_eq_of_cover 16 (whole m c) (fun t _ => flushed_eq m c t) cover

end Cert.Blocks

end
-- ==== Proof.HostPrefix.lean ====
/-
  The host operations before the region, read as mathematics.

  Before its one region the program cuts each of the three (2048 × 1024) matrices into its upper half (rows
  0 … 1023) and its lower half (rows 1024 … 2047), converts the halves and the three (512 × 1024) blocks to bf16,
  adds the two biases of the r gate and the two of the u gate entry by entry, and lays each of the four bias vectors
  out as one row. At the ideal reading a change of float format is the identity, a slice reads the source at the
  shifted row, and a reshape of 1024 entries to one row of 1024 reads the same entry. So the sixteen arrays the region
  finds, put into the specification's `GA`, are the specification's `G` of the fifteen argument arrays.
-/
import proofs.«167478_j35115652612130_1_alg».proof.Proof.Gen.KernelIdeal.Frame
import proofs.«167478_j35115652612130_1_alg».proof.Proof.Spec
import Idealize.ShloMosaic.Lib.ValueLayout

noncomputable section

namespace Cert.HostPrefix

open Idealize.ShloMosaic Idealize.ShloMosaic.TcCoe Idealize.ShloMosaic.ValueIdx

open Cert.KernelIdeal Cert.KernelIdeal.Gen

/-! ## What each array holds when the region is entered

The host operations before the region write each of these arrays exactly once, from argument arrays (or from an
array written just before, itself from an argument array) that nothing overwrites; so its contents at region entry
are the operations' functions applied to the arguments as launched. -/

section Entry
variable (m : (ℓ : Loc nD τ sig) → Buf (Elt Ideal) ℓ) (c : Dev nD)

/-- The r gate's x-block as the region finds it: argument 7 converted to bf16. -/
theorem V_v6 : @Eq (FVec Ideal S512x1024 .bf16) (V m c main_v6)
    (truncf .bf16 (m ((c : Thread nD τ).loc main_arg7)) bitsLt_bf16_f32) := by
  dsimp only [Gen.V, Gen.hostOps0]; after_results <;> rfl

/-- The u gate's x-block: argument 3 converted to bf16. -/
theorem V_v7 : @Eq (FVec Ideal S512x1024 .bf16) (V m c main_v7)
    (truncf .bf16 (m ((c : Thread nD τ).loc main_arg3)) bitsLt_bf16_f32) := by
  dsimp only [Gen.V, Gen.hostOps0]; after_results <;> rfl

/-- The candidate's x-block: argument 11 converted to bf16. -/
theorem V_v8 : @Eq (FVec Ideal S512x1024 .bf16) (V m c main_v8)
    (truncf .bf16 (m ((c : Thread nD τ).loc main_arg11)) bitsLt_bf16_f32) := by
  dsimp only [Gen.V, Gen.hostOps0]; after_results <;> rfl

/-- The r gate's h-half: rows 0 … 1023 of argument 9, converted to bf16. -/
theorem V_v9 : @Eq (FVec Ideal S1024x1024 .bf16) (V m c main_v9)
    (truncf .bf16 (extractStridedSlice S1024x1024 ![0, 0] (m ((c : Thread nD τ).loc main_arg9)) slices_S2048x1024_S1024x1024_0_0) bitsLt_bf16_f32) := by
  dsimp only [Gen.V, Gen.hostOps0]; after_results <;> rfl

/-- The r gate's c-half: rows 1024 … 2047 of argument 9, converted to bf16. -/
theorem V_v10 : @Eq (FVec Ideal S1024x1024 .bf16) (V m c main_v10)
    (truncf .bf16 (extractStridedSlice S1024x1024 ![1024, 0] (m ((c : Thread nD τ).loc main_arg9)) slices_S2048x1024_S1024x1024_1024_0) bitsLt_bf16_f32) := by
  dsimp only [Gen.V, Gen.hostOps0]; after_results <;> rfl

/-- The u gate's h-half: rows 0 … 1023 of argument 5, converted to bf16. -/
theorem V_v11 : @Eq (FVec Ideal S1024x1024 .bf16) (V m c main_v11)
    (truncf .bf16 (extractStridedSlice S1024x1024 ![0, 0] (m ((c : Thread nD τ).loc main_arg5)) slices_S2048x1024_S1024x1024_0_0) bitsLt_bf16_f32) := by
  dsimp only [Gen.V, Gen.hostOps0]; after_results <;> rfl

/-- The u gate's c-half: rows 1024 … 2047 of argument 5, converted to bf16. -/
theorem V_v12 : @Eq (FVec Ideal S1024x1024 .bf16) (V m c main_v12)
    (truncf .bf16 (extractStridedSlice S1024x1024 ![1024, 0] (m ((c : Thread nD τ).loc main_arg5)) slices_S2048x1024_S1024x1024_1024_0) bitsLt_bf16_f32) := by
  dsimp only [Gen.V, Gen.hostOps0]; after_results <;> rfl

/-- The candidate's h-half: rows 0 … 1023 of argument 13, converted to bf16. -/
theorem V_v13 : @Eq (FVec Ideal S1024x1024 .bf16) (V m c main_v13)
    (truncf .bf16 (extractStridedSlice S1024x1024 ![0, 0] (m ((c : Thread nD τ).loc main_arg13)) slices_S2048x1024_S1024x1024_0_0) bitsLt_bf16_f32) := by
  dsimp only [Gen.V, Gen.hostOps0]; after_results <;> rfl

/-- The candidate's c-half: rows 1024 … 2047 of argument 13, converted to bf16. -/
theorem V_v14 : @Eq (FVec Ideal S1024x1024 .bf16) (V m c main_v14)
    (truncf .bf16 (extractStridedSlice S1024x1024 ![1024, 0] (m ((c : Thread nD τ).loc main_arg13)) slices_S2048x1024_S1024x1024_1024_0) bitsLt_bf16_f32) := by
  dsimp only [Gen.V, Gen.hostOps0]; after_results <;> rfl

/-- The r gate's bias row: arguments 8 and 10 added entry by entry, laid out as one row. -/
theorem V_v16 : @Eq (FVec Ideal S1x1024 .f32) (V m c main_v16)
    (shapeCast S1x1024 (addf (F := Ideal) (m ((c : Thread nD τ).loc main_arg8)) (m ((c : Thread nD τ).loc main_arg10))) shapeCasts_S1024_S1x1024) := by
  dsimp only [Gen.V, Gen.hostOps0]; after_results <;> rfl

/-- The u gate's bias row: arguments 4 and 6 added entry by entry, laid out as one row. -/
theorem V_v18 : @Eq (FVec Ideal S1x1024 .f32) (V m c main_v18)
    (shapeCast S1x1024 (addf (F := Ideal) (m ((c : Thread nD τ).loc main_arg4)) (m ((c : Thread nD τ).loc main_arg6))) shapeCasts_S1024_S1x1024) := by
  dsimp only [Gen.V, Gen.hostOps0]; after_results <;> rfl

/-- The candidate's x bias, argument 12, laid out as one row. -/
theorem V_v19 : @Eq (FVec Ideal S1x1024 .f32) (V m c main_v19)
    (shapeCast S1x1024 (m ((c : Thread nD τ).loc main_arg12)) shapeCasts_S1024_S1x1024) := by
  dsimp only [Gen.V, Gen.hostOps0]; after_results <;> rfl

/-- The candidate's [h, c] bias, argument 14, laid out as one row. -/
theorem V_v20 : @Eq (FVec Ideal S1x1024 .f32) (V m c main_v20)
    (shapeCast S1x1024 (m ((c : Thread nD τ).loc main_arg14)) shapeCasts_S1024_S1x1024) := by
  dsimp only [Gen.V, Gen.hostOps0]; after_results <;> rfl

end Entry

/-! ## The operations read at an index -/

/-- The upper half of a 2048-row matrix reads at (k, j) the matrix at row k of its upper half. -/
theorem lo_read (a : FVec Ideal S2048x1024 .f32) (k j : Fin 1024) :
    extractStridedSlice S1024x1024 ![0, 0] a slices_S2048x1024_S1024x1024_0_0 (ix2 k j) = a (ix2 (Cert.Spec.lo k) j) :=
  slice2_axis0_apply 0 a slices_S2048x1024_S1024x1024_0_0 k j (Cert.Spec.lo k) (Nat.zero_add _).symm

/-- The lower half reads at (k, j) the matrix at row 1024 + k. -/
theorem hi_read (a : FVec Ideal S2048x1024 .f32) (k j : Fin 1024) :
    extractStridedSlice S1024x1024 ![1024, 0] a slices_S2048x1024_S1024x1024_1024_0 (ix2 k j) = a (ix2 (Cert.Spec.hi k) j) :=
  slice2_axis0_apply 1024 a slices_S2048x1024_S1024x1024_1024_0 k j (Cert.Spec.hi k) rfl

/-- A vector of 1024 entries laid out as one row reads at (0, j) its entry j. -/
theorem row_read (x : FVec Ideal S1024 .f32) (j : Fin 1024) :
    shapeCast S1x1024 x shapeCasts_S1024_S1x1024 (ix2 (0 : Fin 1) j) = x (ix1 j) :=
  shapeCast_a_1a_apply x shapeCasts_S1024_S1x1024 0 j

/-! ## The kernel's sixteen arrays, as functions of the fifteen arguments, give G -/

/-- One entry, at row r and column j: the cell over the cut, converted and re-laid arrays is the cell over the
    arguments. Each converted block reads as the argument (a change of float format is the identity on the extended
    reals), each half reads the argument at the row of that half, each bias row reads the bias entry — the sum of two
    entries for the r and u gates. -/
theorem cell_ops (a0 : FVec Ideal S32768x512 .f32) (a1 a2 : FVec Ideal S32768x1024 .f32)
    (a3 : FVec Ideal S512x1024 .f32) (a4 : FVec Ideal S1024 .f32) (a5 : FVec Ideal S2048x1024 .f32) (a6 : FVec Ideal S1024 .f32)
    (a7 : FVec Ideal S512x1024 .f32) (a8 : FVec Ideal S1024 .f32) (a9 : FVec Ideal S2048x1024 .f32) (a10 : FVec Ideal S1024 .f32)
    (a11 : FVec Ideal S512x1024 .f32) (a12 : FVec Ideal S1024 .f32) (a13 : FVec Ideal S2048x1024 .f32) (a14 : FVec Ideal S1024 .f32)
    (r : Fin 32768) (j : Fin 1024) :
    Cert.Spec.cell (fun k => (a0 (ix2 r k) : EReal)) (fun k => (a1 (ix2 r k) : EReal)) (fun k => (a2 (ix2 r k) : EReal))
      (a1 (ix2 r j) : EReal)
      (fun k => ((truncf .bf16 a7 bitsLt_bf16_f32 : FVec Ideal S512x1024 .bf16) (ix2 k j) : EReal))
      (fun k => ((truncf .bf16 a3 bitsLt_bf16_f32 : FVec Ideal S512x1024 .bf16) (ix2 k j) : EReal))
      (fun k => ((truncf .bf16 a11 bitsLt_bf16_f32 : FVec Ideal S512x1024 .bf16) (ix2 k j) : EReal))
      (fun k => ((truncf .bf16 (extractStridedSlice S1024x1024 ![0, 0] a9 slices_S2048x1024_S1024x1024_0_0) bitsLt_bf16_f32 : FVec Ideal S1024x1024 .bf16) (ix2 k j) : EReal))
      (fun k => ((truncf .bf16 (extractStridedSlice S1024x1024 ![1024, 0] a9 slices_S2048x1024_S1024x1024_1024_0) bitsLt_bf16_f32 : FVec Ideal S1024x1024 .bf16) (ix2 k j) : EReal))
      (fun k => ((truncf .bf16 (extractStridedSlice S1024x1024 ![0, 0] a5 slices_S2048x1024_S1024x1024_0_0) bitsLt_bf16_f32 : FVec Ideal S1024x1024 .bf16) (ix2 k j) : EReal))
      (fun k => ((truncf .bf16 (extractStridedSlice S1024x1024 ![1024, 0] a5 slices_S2048x1024_S1024x1024_1024_0) bitsLt_bf16_f32 : FVec Ideal S1024x1024 .bf16) (ix2 k j) : EReal))
      (fun k => ((truncf .bf16 (extractStridedSlice S1024x1024 ![0, 0] a13 slices_S2048x1024_S1024x1024_0_0) bitsLt_bf16_f32 : FVec Ideal S1024x1024 .bf16) (ix2 k j) : EReal))
      (fun k => ((truncf .bf16 (extractStridedSlice S1024x1024 ![1024, 0] a13 slices_S2048x1024_S1024x1024_1024_0) bitsLt_bf16_f32 : FVec Ideal S1024x1024 .bf16) (ix2 k j) : EReal))
      ((shapeCast S1x1024 (addf a8 a10) shapeCasts_S1024_S1x1024 : FVec Ideal S1x1024 .f32) (ix2 (0 : Fin 1) j) : EReal)
      ((shapeCast S1x1024 (addf a4 a6) shapeCasts_S1024_S1x1024 : FVec Ideal S1x1024 .f32) (ix2 (0 : Fin 1) j) : EReal)
      ((shapeCast S1x1024 a12 shapeCasts_S1024_S1x1024 : FVec Ideal S1x1024 .f32) (ix2 (0 : Fin 1) j) : EReal)
      ((shapeCast S1x1024 a14 shapeCasts_S1024_S1x1024 : FVec Ideal S1x1024 .f32) (ix2 (0 : Fin 1) j) : EReal)
    = Cert.Spec.cell (fun k => (a0 (ix2 r k) : EReal)) (fun k => (a1 (ix2 r k) : EReal)) (fun k => (a2 (ix2 r k) : EReal))
      (a1 (ix2 r j) : EReal)
      (fun k => (a7 (ix2 k j) : EReal)) (fun k => (a3 (ix2 k j) : EReal)) (fun k => (a11 (ix2 k j) : EReal))
      (fun k => (a9 (ix2 (Cert.Spec.lo k) j) : EReal)) (fun k => (a9 (ix2 (Cert.Spec.hi k) j) : EReal))
      (fun k => (a5 (ix2 (Cert.Spec.lo k) j) : EReal)) (fun k => (a5 (ix2 (Cert.Spec.hi k) j) : EReal))
      (fun k => (a13 (ix2 (Cert.Spec.lo k) j) : EReal)) (fun k => (a13 (ix2 (Cert.Spec.hi k) j) : EReal))
      ((a8 (ix1 j) : EReal) + (a10 (ix1 j) : EReal)) ((a4 (ix1 j) : EReal) + (a6 (ix1 j) : EReal))
      (a12 (ix1 j) : EReal) (a14 (ix1 j) : EReal) := by
  simp only [truncf_apply, lo_read, hi_read, row_read, addf_apply]

/-- Over any fifteen argument arrays: the halves cut and converted, the x-blocks converted, the biases summed and
    laid out as rows, put into GA, give G of the arguments: entry by entry, by the lemma above. -/
theorem GA_ops (a0 : FVec Ideal S32768x512 .f32) (a1 a2 : FVec Ideal S32768x1024 .f32)
    (a3 : FVec Ideal S512x1024 .f32) (a4 : FVec Ideal S1024 .f32) (a5 : FVec Ideal S2048x1024 .f32) (a6 : FVec Ideal S1024 .f32)
    (a7 : FVec Ideal S512x1024 .f32) (a8 : FVec Ideal S1024 .f32) (a9 : FVec Ideal S2048x1024 .f32) (a10 : FVec Ideal S1024 .f32)
    (a11 : FVec Ideal S512x1024 .f32) (a12 : FVec Ideal S1024 .f32) (a13 : FVec Ideal S2048x1024 .f32) (a14 : FVec Ideal S1024 .f32) :
    Cert.Spec.GA a0 a1 a2
      (truncf .bf16 a7 bitsLt_bf16_f32) (truncf .bf16 a3 bitsLt_bf16_f32) (truncf .bf16 a11 bitsLt_bf16_f32)
      (truncf .bf16 (extractStridedSlice S1024x1024 ![0, 0] a9 slices_S2048x1024_S1024x1024_0_0) bitsLt_bf16_f32)
      (truncf .bf16 (extractStridedSlice S1024x1024 ![1024, 0] a9 slices_S2048x1024_S1024x1024_1024_0) bitsLt_bf16_f32)
      (truncf .bf16 (extractStridedSlice S1024x1024 ![0, 0] a5 slices_S2048x1024_S1024x1024_0_0) bitsLt_bf16_f32)
      (truncf .bf16 (extractStridedSlice S1024x1024 ![1024, 0] a5 slices_S2048x1024_S1024x1024_1024_0) bitsLt_bf16_f32)
      (truncf .bf16 (extractStridedSlice S1024x1024 ![0, 0] a13 slices_S2048x1024_S1024x1024_0_0) bitsLt_bf16_f32)
      (truncf .bf16 (extractStridedSlice S1024x1024 ![1024, 0] a13 slices_S2048x1024_S1024x1024_1024_0) bitsLt_bf16_f32)
      (shapeCast S1x1024 (addf a8 a10) shapeCasts_S1024_S1x1024)
      (shapeCast S1x1024 (addf a4 a6) shapeCasts_S1024_S1x1024)
      (shapeCast S1x1024 a12 shapeCasts_S1024_S1x1024)
      (shapeCast S1x1024 a14 shapeCasts_S1024_S1x1024)
    = Cert.Spec.G a0 a1 a2 a3 a4 a5 a6 a7 a8 a9 a10 a11 a12 a13 a14 := by
  funext i
  exact cell_ops a0 a1 a2 a3 a4 a5 a6 a7 a8 a9 a10 a11 a12 a13 a14 (i 0) (i 1)

/-- GA of equal arrays is equal. -/
theorem GA_congr {A0 B0 : FVec Ideal S32768x512 .f32} {A1 B1 A2 B2 : FVec Ideal S32768x1024 .f32}
    {A3 B3 A4 B4 A5 B5 : FVec Ideal S512x1024 .bf16}
    {A6 B6 A7 B7 A8 B8 A9 B9 A10 B10 A11 B11 : FVec Ideal S1024x1024 .bf16}
    {A12 B12 A13 B13 A14 B14 A15 B15 : FVec Ideal S1x1024 .f32}
    (h0 : A0 = B0) (h1 : A1 = B1) (h2 : A2 = B2) (h3 : A3 = B3) (h4 : A4 = B4) (h5 : A5 = B5) (h6 : A6 = B6)
    (h7 : A7 = B7) (h8 : A8 = B8) (h9 : A9 = B9) (h10 : A10 = B10) (h11 : A11 = B11) (h12 : A12 = B12)
    (h13 : A13 = B13) (h14 : A14 = B14) (h15 : A15 = B15) :
    Cert.Spec.GA A0 A1 A2 A3 A4 A5 A6 A7 A8 A9 A10 A11 A12 A13 A14 A15
      = Cert.Spec.GA B0 B1 B2 B3 B4 B5 B6 B7 B8 B9 B10 B11 B12 B13 B14 B15 := by
  rw [h0, h1, h2, h3, h4, h5, h6, h7, h8, h9, h10, h11, h12, h13, h14, h15]

/-! ## The arrays the region finds give G of the arguments -/

open Cert.KernelIdeal Cert.KernelIdeal.Gen in
theorem GA_V (m : (ℓ : Loc nD τ sig) → Buf (Elt Ideal) ℓ) (c : Dev nD) :
    Cert.Spec.GA (V m c (Pipeline.arrRef spec0 0)) (V m c (Pipeline.arrRef spec0 1)) (V m c (Pipeline.arrRef spec0 2))
      (V m c (Pipeline.arrRef spec0 3)) (V m c (Pipeline.arrRef spec0 4)) (V m c (Pipeline.arrRef spec0 5))
      (V m c (Pipeline.arrRef spec0 6)) (V m c (Pipeline.arrRef spec0 7)) (V m c (Pipeline.arrRef spec0 8))
      (V m c (Pipeline.arrRef spec0 9)) (V m c (Pipeline.arrRef spec0 10)) (V m c (Pipeline.arrRef spec0 11))
      (V m c (Pipeline.arrRef spec0 12)) (V m c (Pipeline.arrRef spec0 13)) (V m c (Pipeline.arrRef spec0 14))
      (V m c (Pipeline.arrRef spec0 15))
    = Cert.Spec.G (m ((c : Thread nD τ).loc main_arg0)) (m ((c : Thread nD τ).loc main_arg1)) (m ((c : Thread nD τ).loc main_arg2))
      (m ((c : Thread nD τ).loc main_arg3)) (m ((c : Thread nD τ).loc main_arg4)) (m ((c : Thread nD τ).loc main_arg5))
      (m ((c : Thread nD τ).loc main_arg6)) (m ((c : Thread nD τ).loc main_arg7)) (m ((c : Thread nD τ).loc main_arg8))
      (m ((c : Thread nD τ).loc main_arg9)) (m ((c : Thread nD τ).loc main_arg10)) (m ((c : Thread nD τ).loc main_arg11))
      (m ((c : Thread nD τ).loc main_arg12)) (m ((c : Thread nD τ).loc main_arg13)) (m ((c : Thread nD τ).loc main_arg14)) :=
  (GA_congr (V_main_arg0 m c) (V_main_arg1 m c) (V_main_arg2 m c)
    (V_v6 m c) (V_v7 m c) (V_v8 m c) (V_v9 m c) (V_v10 m c) (V_v11 m c) (V_v12 m c) (V_v13 m c) (V_v14 m c)
    (V_v16 m c) (V_v18 m c) (V_v19 m c) (V_v20 m c)).trans
  (GA_ops _ _ _ _ _ _ _ _ _ _ _ _ _ _ _)

end Cert.HostPrefix

end
-- ==== Proof.RefValue.lean ====
/-
  The reference program's result, at the exact instance, is the specification's function G.

  The reference computes each gate's linear part as  (x·Wx + bx) + [h, c]·W + b,  where [h, c] is the row of h
  followed by the row of c and W is a (2048 × 1024) matrix.  Reading the concatenation at a column below 1024
  gives h, at a column from 1024 on gives c, so the sum over 2048 columns is the sum over the upper half of W
  against h plus the sum over the lower half against c.  Commutativity and associativity of + on the extended
  reals bring the terms into the specification's order, and  1 / (1 + exp (-z))  is the logistic function.
-/
import proofs.«167478_j35115652612130_1_alg».proof.Proof.Gen.ReferenceIdeal.Read
import proofs.«167478_j35115652612130_1_alg».proof.Proof.Spec

noncomputable section

open scoped BigOperators

namespace Cert.RefValue

open Cert.ReferenceIdeal Cert.ReferenceIdeal.Gen Cert.ReferenceIdeal.Read
open Idealize.ShloMosaic Idealize.ShloMosaic.ValueIdx Idealize.ShloMosaic.StableHlo
open Cert.Spec (dot lo hi)

/-! ## The concatenated row [h, c] at a column of either half -/

/-- At a column of the upper half the concatenation reads its first piece. -/
theorem cat_lo (x1 x2 : FVec Ideal S32768x1024 .f32) (r : Fin 32768) (k : Fin 1024) :
    val_main_v0 (F := Ideal) x1 x2 (ix2 r (lo k)) = x1 (ix2 r k) := by
  unfold val_main_v0
  exact concatenate_pair_apply_left (t := S32768x2048) (s₁ := S32768x1024) (s₂ := S32768x1024) 1 x1 x2
    concatenates_S32768x1024_S32768x1024_S32768x2048_d1 (ix2 r (lo k)) rfl (ix2 r k)
    (fun b => match b with | ⟨0, _⟩ => rfl | ⟨1, _⟩ => rfl)

/-- At a column of the lower half the concatenation reads its second piece, 1024 columns earlier. -/
theorem cat_hi (x1 x2 : FVec Ideal S32768x1024 .f32) (r : Fin 32768) (k : Fin 1024) :
    val_main_v0 (F := Ideal) x1 x2 (ix2 r (hi k)) = x2 (ix2 r k) := by
  unfold val_main_v0
  exact concatenate_pair_apply_right (t := S32768x2048) (s₁ := S32768x1024) (s₂ := S32768x1024) 1 x1 x2
    concatenates_S32768x1024_S32768x1024_S32768x2048_d1 (ix2 r (hi k)) rfl rfl (ix2 r k)
    (fun b hb => match b, hb with | ⟨0, _⟩, _ => rfl | ⟨1, _⟩, hb => absurd rfl hb)
    (by show k.val + 1024 = 1024 + k.val; omega)

/-! ## The two kinds of product -/

/-- A product of the x row with a (512 × 1024) matrix, its indices given as functions of the summation index. -/
theorem dot512 (x : FVec Ideal S32768x512 .f32) (w : FVec Ideal S512x1024 .f32) (i : S32768x1024.Idx)
    (L : Fin 512 → S32768x512.Idx) (R : Fin 512 → S512x1024.Idx)
    (hL : ∀ k, L k = ix2 (i 0) k) (hR : ∀ k, R k = ix2 k (i 1)) :
    ∑ k : Fin 512, x (L k) * w (R k)
      = dot (fun k : Fin 512 => (x (ix2 (i 0) k) : EReal)) (fun k : Fin 512 => (w (ix2 k (i 1)) : EReal)) := by
  unfold Cert.Spec.dot
  refine Finset.sum_congr rfl fun k _ => ?_
  exact congrArg₂ (· * ·) (congrArg x (hL k)) (congrArg w (hR k))

/-- A product of the concatenated row [h, c] with a (2048 × 1024) matrix is the product of h with the upper half
    plus the product of c with the lower half. -/
theorem dot2048 (x1 x2 : FVec Ideal S32768x1024 .f32) (w : FVec Ideal S2048x1024 .f32) (i : S32768x1024.Idx)
    (L : Fin 2048 → S32768x2048.Idx) (R : Fin 2048 → S2048x1024.Idx)
    (hL : ∀ k, L k = ix2 (i 0) k) (hR : ∀ k, R k = ix2 k (i 1)) :
    ∑ k : Fin 2048, val_main_v0 (F := Ideal) x1 x2 (L k) * w (R k)
      = dot (fun k : Fin 1024 => (x1 (ix2 (i 0) k) : EReal)) (fun k : Fin 1024 => (w (ix2 (lo k) (i 1)) : EReal))
        + dot (fun k : Fin 1024 => (x2 (ix2 (i 0) k) : EReal)) (fun k : Fin 1024 => (w (ix2 (hi k) (i 1)) : EReal)) := by
  refine (Cert.Spec.sum_halves (fun k => val_main_v0 (F := Ideal) x1 x2 (L k) * w (R k))).trans ?_
  unfold Cert.Spec.dot
  refine congrArg₂ (· + ·) (Finset.sum_congr rfl fun k _ => ?_) (Finset.sum_congr rfl fun k _ => ?_)
  · exact congrArg₂ (· * ·) ((congrArg (val_main_v0 (F := Ideal) x1 x2) (hL (lo k))).trans (cat_lo x1 x2 (i 0) k))
      (congrArg w (hR (lo k)))
  · exact congrArg₂ (· * ·) ((congrArg (val_main_v0 (F := Ideal) x1 x2) (hL (hi k))).trans (cat_hi x1 x2 (i 0) k))
      (congrArg w (hR (hi k)))

/-! ## Each product of the program -/

theorem v1_eq (x : FVec Ideal S32768x512 .f32) (w : FVec Ideal S512x1024 .f32) (i : S32768x1024.Idx) :
    val_main_v1 (F := Ideal) x w i
      = dot (fun k : Fin 512 => (x (ix2 (i 0) k) : EReal)) (fun k : Fin 512 => (w (ix2 k (i 1)) : EReal)) :=
  (val_main_v1_apply x w i).trans
    (dot512 x w i (lidx_main_v1 i) (ridx_main_v1 i) (fun k => funext fun a => match a with | ⟨0, _⟩ => rfl | ⟨1, _⟩ => rfl) (fun k => funext fun a => match a with | ⟨0, _⟩ => rfl | ⟨1, _⟩ => rfl))

theorem v16_eq (x : FVec Ideal S32768x512 .f32) (w : FVec Ideal S512x1024 .f32) (i : S32768x1024.Idx) :
    val_main_v16 (F := Ideal) x w i
      = dot (fun k : Fin 512 => (x (ix2 (i 0) k) : EReal)) (fun k : Fin 512 => (w (ix2 k (i 1)) : EReal)) :=
  (val_main_v16_apply x w i).trans
    (dot512 x w i (lidx_main_v16 i) (ridx_main_v16 i) (fun k => funext fun a => match a with | ⟨0, _⟩ => rfl | ⟨1, _⟩ => rfl) (fun k => funext fun a => match a with | ⟨0, _⟩ => rfl | ⟨1, _⟩ => rfl))

theorem v31_eq (x : FVec Ideal S32768x512 .f32) (w : FVec Ideal S512x1024 .f32) (i : S32768x1024.Idx) :
    val_main_v31 (F := Ideal) x w i
      = dot (fun k : Fin 512 => (x (ix2 (i 0) k) : EReal)) (fun k : Fin 512 => (w (ix2 k (i 1)) : EReal)) :=
  (val_main_v31_apply x w i).trans
    (dot512 x w i (lidx_main_v31 i) (ridx_main_v31 i) (fun k => funext fun a => match a with | ⟨0, _⟩ => rfl | ⟨1, _⟩ => rfl) (fun k => funext fun a => match a with | ⟨0, _⟩ => rfl | ⟨1, _⟩ => rfl))

theorem v5_eq (x1 x2 : FVec Ideal S32768x1024 .f32) (w : FVec Ideal S2048x1024 .f32) (i : S32768x1024.Idx) :
    val_main_v5 (F := Ideal) x1 x2 w i
      = dot (fun k : Fin 1024 => (x1 (ix2 (i 0) k) : EReal)) (fun k : Fin 1024 => (w (ix2 (lo k) (i 1)) : EReal))
        + dot (fun k : Fin 1024 => (x2 (ix2 (i 0) k) : EReal)) (fun k : Fin 1024 => (w (ix2 (hi k) (i 1)) : EReal)) :=
  (val_main_v5_apply x1 x2 w i).trans
    (dot2048 x1 x2 w i (lidx_main_v5 i) (ridx_main_v5 i) (fun k => funext fun a => match a with | ⟨0, _⟩ => rfl | ⟨1, _⟩ => rfl) (fun k => funext fun a => match a with | ⟨0, _⟩ => rfl | ⟨1, _⟩ => rfl))

theorem v20_eq (x1 x2 : FVec Ideal S32768x1024 .f32) (w : FVec Ideal S2048x1024 .f32) (i : S32768x1024.Idx) :
    val_main_v20 (F := Ideal) x1 x2 w i
      = dot (fun k : Fin 1024 => (x1 (ix2 (i 0) k) : EReal)) (fun k : Fin 1024 => (w (ix2 (lo k) (i 1)) : EReal))
        + dot (fun k : Fin 1024 => (x2 (ix2 (i 0) k) : EReal)) (fun k : Fin 1024 => (w (ix2 (hi k) (i 1)) : EReal)) :=
  (val_main_v20_apply x1 x2 w i).trans
    (dot2048 x1 x2 w i (lidx_main_v20 i) (ridx_main_v20 i) (fun k => funext fun a => match a with | ⟨0, _⟩ => rfl | ⟨1, _⟩ => rfl) (fun k => funext fun a => match a with | ⟨0, _⟩ => rfl | ⟨1, _⟩ => rfl))

theorem v35_eq (x1 x2 : FVec Ideal S32768x1024 .f32) (w : FVec Ideal S2048x1024 .f32) (i : S32768x1024.Idx) :
    val_main_v35 (F := Ideal) x1 x2 w i
      = dot (fun k : Fin 1024 => (x1 (ix2 (i 0) k) : EReal)) (fun k : Fin 1024 => (w (ix2 (lo k) (i 1)) : EReal))
        + dot (fun k : Fin 1024 => (x2 (ix2 (i 0) k) : EReal)) (fun k : Fin 1024 => (w (ix2 (hi k) (i 1)) : EReal)) :=
  (val_main_v35_apply x1 x2 w i).trans
    (dot2048 x1 x2 w i (lidx_main_v35 i) (ridx_main_v35 i) (fun k => funext fun a => match a with | ⟨0, _⟩ => rfl | ⟨1, _⟩ => rfl) (fun k => funext fun a => match a with | ⟨0, _⟩ => rfl | ⟨1, _⟩ => rfl))

/-! ## Each bias, broadcast along the rows in two steps, read at an index -/

theorem v3_eq (b : FVec Ideal S1024 .f32) (i : S32768x1024.Idx) :
    val_main_v3 (F := Ideal) b i = b (ix1 (i 1)) := by
  rw [val_main_v3_apply, val_main_v2_apply]
  exact congrArg b (funext fun a => match a with | ⟨0, _⟩ => rfl)

theorem v8_eq (b : FVec Ideal S1024 .f32) (i : S32768x1024.Idx) :
    val_main_v8 (F := Ideal) b i = b (ix1 (i 1)) := by
  rw [val_main_v8_apply, val_main_v7_apply]
  exact congrArg b (funext fun a => match a with | ⟨0, _⟩ => rfl)

theorem v18_eq (b : FVec Ideal S1024 .f32) (i : S32768x1024.Idx) :
    val_main_v18 (F := Ideal) b i = b (ix1 (i 1)) := by
  rw [val_main_v18_apply, val_main_v17_apply]
  exact congrArg b (funext fun a => match a with | ⟨0, _⟩ => rfl)

theorem v23_eq (b : FVec Ideal S1024 .f32) (i : S32768x1024.Idx) :
    val_main_v23 (F := Ideal) b i = b (ix1 (i 1)) := by
  rw [val_main_v23_apply, val_main_v22_apply]
  exact congrArg b (funext fun a => match a with | ⟨0, _⟩ => rfl)

theorem v33_eq (b : FVec Ideal S1024 .f32) (i : S32768x1024.Idx) :
    val_main_v33 (F := Ideal) b i = b (ix1 (i 1)) := by
  rw [val_main_v33_apply, val_main_v32_apply]
  exact congrArg b (funext fun a => match a with | ⟨0, _⟩ => rfl)

theorem v37_eq (b : FVec Ideal S1024 .f32) (i : S32768x1024.Idx) :
    val_main_v37 (F := Ideal) b i = b (ix1 (i 1)) := by
  rw [val_main_v37_apply, val_main_v36_apply]
  exact congrArg b (funext fun a => match a with | ⟨0, _⟩ => rfl)

/-! ## The four broadcasts of the constant 1.0 -/

theorem v12_eq (i : S32768x1024.Idx) : val_main_v12 (F := Ideal) i = Cert.Spec.one := by
  rw [val_main_v12_apply, val_main_cst_apply]; rfl

theorem v14_eq (i : S32768x1024.Idx) : val_main_v14 (F := Ideal) i = Cert.Spec.one := by
  rw [val_main_v14_apply, val_main_cst_0_apply]; rfl

theorem v27_eq (i : S32768x1024.Idx) : val_main_v27 (F := Ideal) i = Cert.Spec.one := by
  rw [val_main_v27_apply, val_main_cst_1_apply]; rfl

theorem v29_eq (i : S32768x1024.Idx) : val_main_v29 (F := Ideal) i = Cert.Spec.one := by
  rw [val_main_v29_apply, val_main_cst_2_apply]; rfl

theorem v43_eq (i : S32768x1024.Idx) : val_main_v43 (F := Ideal) i = Cert.Spec.one := by
  rw [val_main_v43_apply, val_main_cst_3_apply]; rfl

/-! ## The linear parts and the gates -/

/-- The linear part of the r gate, in the specification's order. -/
theorem lin_r (a0 : FVec Ideal S32768x512 .f32) (a1 a2 : FVec Ideal S32768x1024 .f32)
    (a7 : FVec Ideal S512x1024 .f32) (a8 : FVec Ideal S1024 .f32) (a9 : FVec Ideal S2048x1024 .f32)
    (a10 : FVec Ideal S1024 .f32) (i : S32768x1024.Idx) :
    val_main_v9 (F := Ideal) a0 a1 a2 a7 a8 a9 a10 i
      = dot (fun k : Fin 512 => (a0 (ix2 (i 0) k) : EReal)) (fun k : Fin 512 => (a7 (ix2 k (i 1)) : EReal))
        + dot (fun k : Fin 1024 => (a1 (ix2 (i 0) k) : EReal)) (fun k : Fin 1024 => (a9 (ix2 (lo k) (i 1)) : EReal))
        + dot (fun k : Fin 1024 => (a2 (ix2 (i 0) k) : EReal)) (fun k : Fin 1024 => (a9 (ix2 (hi k) (i 1)) : EReal))
        + ((a8 (ix1 (i 1)) : EReal) + (a10 (ix1 (i 1)) : EReal)) := by
  rw [val_main_v9_apply, val_main_v6_apply, val_main_v4_apply, v1_eq, v3_eq, v5_eq, v8_eq]
  exact Cert.Spec.lin_regroup _ _ _ _ _

/-- The r gate. -/
theorem gate_r (a0 : FVec Ideal S32768x512 .f32) (a1 a2 : FVec Ideal S32768x1024 .f32)
    (a7 : FVec Ideal S512x1024 .f32) (a8 : FVec Ideal S1024 .f32) (a9 : FVec Ideal S2048x1024 .f32)
    (a10 : FVec Ideal S1024 .f32) (i : S32768x1024.Idx) :
    val_main_v15 (F := Ideal) a0 a1 a2 a7 a8 a9 a10 i
      = Ideal.logistic
        (dot (fun k : Fin 512 => (a0 (ix2 (i 0) k) : EReal)) (fun k : Fin 512 => (a7 (ix2 k (i 1)) : EReal))
        + dot (fun k : Fin 1024 => (a1 (ix2 (i 0) k) : EReal)) (fun k : Fin 1024 => (a9 (ix2 (lo k) (i 1)) : EReal))
        + dot (fun k : Fin 1024 => (a2 (ix2 (i 0) k) : EReal)) (fun k : Fin 1024 => (a9 (ix2 (hi k) (i 1)) : EReal))
        + ((a8 (ix1 (i 1)) : EReal) + (a10 (ix1 (i 1)) : EReal))) := by
  rw [val_main_v15_apply, val_main_v13_apply, val_main_v11_apply, val_main_v10_apply, v14_eq, v12_eq, lin_r]
  exact Cert.Spec.logistic_spelled _

/-- The linear part of the u gate, in the specification's order. -/
theorem lin_u (a0 : FVec Ideal S32768x512 .f32) (a1 a2 : FVec Ideal S32768x1024 .f32)
    (a3 : FVec Ideal S512x1024 .f32) (a4 : FVec Ideal S1024 .f32) (a5 : FVec Ideal S2048x1024 .f32)
    (a6 : FVec Ideal S1024 .f32) (i : S32768x1024.Idx) :
    val_main_v24 (F := Ideal) a0 a1 a2 a3 a4 a5 a6 i
      = dot (fun k : Fin 512 => (a0 (ix2 (i 0) k) : EReal)) (fun k : Fin 512 => (a3 (ix2 k (i 1)) : EReal))
        + dot (fun k : Fin 1024 => (a1 (ix2 (i 0) k) : EReal)) (fun k : Fin 1024 => (a5 (ix2 (lo k) (i 1)) : EReal))
        + dot (fun k : Fin 1024 => (a2 (ix2 (i 0) k) : EReal)) (fun k : Fin 1024 => (a5 (ix2 (hi k) (i 1)) : EReal))
        + ((a4 (ix1 (i 1)) : EReal) + (a6 (ix1 (i 1)) : EReal)) := by
  rw [val_main_v24_apply, val_main_v21_apply, val_main_v19_apply, v16_eq, v18_eq, v20_eq, v23_eq]
  exact Cert.Spec.lin_regroup _ _ _ _ _

/-- The u gate. -/
theorem gate_u (a0 : FVec Ideal S32768x512 .f32) (a1 a2 : FVec Ideal S32768x1024 .f32)
    (a3 : FVec Ideal S512x1024 .f32) (a4 : FVec Ideal S1024 .f32) (a5 : FVec Ideal S2048x1024 .f32)
    (a6 : FVec Ideal S1024 .f32) (i : S32768x1024.Idx) :
    val_main_v30 (F := Ideal) a0 a1 a2 a3 a4 a5 a6 i
      = Ideal.logistic
        (dot (fun k : Fin 512 => (a0 (ix2 (i 0) k) : EReal)) (fun k : Fin 512 => (a3 (ix2 k (i 1)) : EReal))
        + dot (fun k : Fin 1024 => (a1 (ix2 (i 0) k) : EReal)) (fun k : Fin 1024 => (a5 (ix2 (lo k) (i 1)) : EReal))
        + dot (fun k : Fin 1024 => (a2 (ix2 (i 0) k) : EReal)) (fun k : Fin 1024 => (a5 (ix2 (hi k) (i 1)) : EReal))
        + ((a4 (ix1 (i 1)) : EReal) + (a6 (ix1 (i 1)) : EReal))) := by
  rw [val_main_v30_apply, val_main_v28_apply, val_main_v26_apply, val_main_v25_apply, v29_eq, v27_eq, lin_u]
  exact Cert.Spec.logistic_spelled _

/-- The candidate's part that comes from x. -/
theorem lin_hx (a0 : FVec Ideal S32768x512 .f32) (a11 : FVec Ideal S512x1024 .f32) (a12 : FVec Ideal S1024 .f32)
    (i : S32768x1024.Idx) :
    val_main_v34 (F := Ideal) a0 a11 a12 i
      = dot (fun k : Fin 512 => (a0 (ix2 (i 0) k) : EReal)) (fun k : Fin 512 => (a11 (ix2 k (i 1)) : EReal))
        + (a12 (ix1 (i 1)) : EReal) := by
  rw [val_main_v34_apply, v31_eq, v33_eq]; rfl

/-- The candidate's part that comes from [h, c]. -/
theorem lin_hhc (a1 a2 : FVec Ideal S32768x1024 .f32) (a13 : FVec Ideal S2048x1024 .f32) (a14 : FVec Ideal S1024 .f32)
    (i : S32768x1024.Idx) :
    val_main_v38 (F := Ideal) a1 a2 a13 a14 i
      = dot (fun k : Fin 1024 => (a1 (ix2 (i 0) k) : EReal)) (fun k : Fin 1024 => (a13 (ix2 (lo k) (i 1)) : EReal))
        + dot (fun k : Fin 1024 => (a2 (ix2 (i 0) k) : EReal)) (fun k : Fin 1024 => (a13 (ix2 (hi k) (i 1)) : EReal))
        + (a14 (ix1 (i 1)) : EReal) := by
  rw [val_main_v38_apply, v35_eq, v37_eq]; rfl

/-! ## The result -/

open Cert.ReferenceIdeal in
theorem ref_eq (a0 : FVec Ideal S32768x512 .f32) (a1 a2 : FVec Ideal S32768x1024 .f32)
    (a3 : FVec Ideal S512x1024 .f32) (a4 : FVec Ideal S1024 .f32) (a5 : FVec Ideal S2048x1024 .f32) (a6 : FVec Ideal S1024 .f32)
    (a7 : FVec Ideal S512x1024 .f32) (a8 : FVec Ideal S1024 .f32) (a9 : FVec Ideal S2048x1024 .f32) (a10 : FVec Ideal S1024 .f32)
    (a11 : FVec Ideal S512x1024 .f32) (a12 : FVec Ideal S1024 .f32) (a13 : FVec Ideal S2048x1024 .f32) (a14 : FVec Ideal S1024 .f32) :
    Cert.ReferenceIdeal.Read.val_main_v46 (F := Ideal) a0 a1 a2 a3 a4 a5 a6 a7 a8 a9 a10 a11 a12 a13 a14
      = Cert.Spec.G a0 a1 a2 a3 a4 a5 a6 a7 a8 a9 a10 a11 a12 a13 a14 := by
  funext i
  rw [val_main_v46_apply, val_main_v45_apply, val_main_v44_apply, val_main_v42_apply, val_main_v41_apply,
    val_main_v40_apply, val_main_v39_apply, v43_eq, gate_u, gate_r, lin_hx, lin_hhc,
    congrArg a1 (eq_ix2 i)]
  rfl

end Cert.RefValue

end
-- ==== Proof.lean ====
/-
  The certificate of the gated recurrent cell: the kernel (64 row blocks of 512 rows, nine matrix products with the
  weight matrices' two halves kept apart, the biases of the r gate and of the u gate summed beforehand) against the
  reference (the rows of h and c concatenated, three products with the whole (2048 × 1024) matrices, the biases
  added one after the other, the logistic function spelled 1 / (1 + exp (-z))).

  Over the extended reals both compute, at row i and column j,

      u * h i j + (1 - u) * tanh (x·whx + bhx + r * (h·whh + c·whc + bhhc)),
      r = logistic (x·wrx + h·wrh + c·wrc + (brx + brhc)),   u = logistic (x·wux + h·wuh + c·wuc + (bux + buhc)),

  the products being sums over k of row i of the left factor against column j of the right one. The two programs
  differ only in the grouping and order of additions and in cutting a sum over 2048 terms into its two halves, and
  addition of extended reals is commutative and associative, so no finiteness of the inputs is used. A change of
  the elements' format is the identity over the extended reals.

  The modules: `Spec` (the function `G` and the laws), `Payload` (the kernel body's stored value at an entry),
  `Blocks` (from the 64 blocks to the whole result array), `HostPrefix` (the arrays the kernel's region finds are
  the arguments' halves, sums and re-layouts), `RefValue` (the reference's result is `G`).
-/
import proofs.«167478_j35115652612130_1_alg».proof.Defs
import proofs.«167478_j35115652612130_1_alg».proof.Proof.Gen.Kernel
import proofs.«167478_j35115652612130_1_alg».proof.Proof.Gen.Kernel.Skeleton
import proofs.«167478_j35115652612130_1_alg».proof.Proof.Gen.Kernel.Launch
import proofs.«167478_j35115652612130_1_alg».proof.Proof.Gen.Kernel.Points
import proofs.«167478_j35115652612130_1_alg».proof.Proof.Gen.Kernel.Frame
import proofs.«167478_j35115652612130_1_alg».proof.Proof.Gen.KernelIdeal
import proofs.«167478_j35115652612130_1_alg».proof.Proof.Gen.KernelIdeal.Skeleton
import proofs.«167478_j35115652612130_1_alg».proof.Proof.Gen.KernelIdeal.Launch
import proofs.«167478_j35115652612130_1_alg».proof.Proof.Gen.KernelIdeal.Points
import proofs.«167478_j35115652612130_1_alg».proof.Proof.Gen.KernelIdeal.Frame
import proofs.«167478_j35115652612130_1_alg».proof.Proof.Gen.ReferenceIdeal
import proofs.«167478_j35115652612130_1_alg».proof.Proof.Gen.Pre_finite_inputs
import proofs.«167478_j35115652612130_1_alg».proof.Proof.Gen.KernelIdeal.Value
import proofs.«167478_j35115652612130_1_alg».proof.Proof.Gen.ReferenceIdeal.Run
import proofs.«167478_j35115652612130_1_alg».proof.Proof.Gen.ReferenceIdeal.Read
import proofs.«167478_j35115652612130_1_alg».proof.Proof.Spec
import proofs.«167478_j35115652612130_1_alg».proof.Proof.Blocks
import proofs.«167478_j35115652612130_1_alg».proof.Proof.HostPrefix
import proofs.«167478_j35115652612130_1_alg».proof.Proof.RefValue
import Idealize.ShloMosaic.Adequacy
import Idealize.ShloMosaic.Init

noncomputable section

namespace Cert.Proof

open Idealize.ShloMosaic Idealize.ShloMosaic.TcCoe Idealize.SL.Sem

/-- The kernel's result array after its run is `G` of its argument arrays: the 64 blocks make up `GA` of the
    sixteen arrays the region finds, and those are the arguments' halves, sums and re-layouts. -/
theorem kernel_run (m : (ℓ : Loc Cert.KernelIdeal.nD Cert.KernelIdeal.τ Cert.KernelIdeal.sig) → Buf (Elt Ideal) ℓ)
    (ρ : Dev Cert.KernelIdeal.nD → PrngReg) :
    θ_run (Cert.KernelIdeal.defs (F := Ideal)) (onTc (τ := Cert.KernelIdeal.τ) (Cert.KernelIdeal.main (F := Ideal))) ⟨m, fun _ => 0, ρ⟩
      fun r => ∀ c : Dev Cert.KernelIdeal.nD,
        r.2.mem ((c.tc : Thread Cert.KernelIdeal.nD Cert.KernelIdeal.τ).loc Cert.KernelIdeal.main_v21)
          = Cert.Spec.G (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14))
        ∧ r.2.mem ((c.tc : Thread Cert.KernelIdeal.nD Cert.KernelIdeal.τ).loc Cert.KernelIdeal.main_v21)
          = Cert.Spec.G (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14))
        ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
        ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
        ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
        ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
        ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
        ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
        ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
        ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
        ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
        ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
        ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
        ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
        ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
        ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
        ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14) :=
  (θ_run Cert.KernelIdeal.defs _ _).mono
    (fun r h c =>
      have e := (h c).1.trans ((Cert.Blocks.final m c).trans (Cert.HostPrefix.GA_V m c))
      ⟨e, e, (h c).2⟩)
    (Cert.KernelIdeal.Value.run_blocks m ρ)

theorem frame_k : Cert.frame_Kernel := fun m ρ _ => Cert.Kernel.Gen.frame m ρ

theorem frame_ki : Cert.frame_KernelIdeal := fun m ρ _ => Cert.KernelIdeal.Gen.frame m ρ

theorem frame_ri : Cert.frame_ReferenceIdeal := fun m ρ _ =>
  (θ_run Cert.ReferenceIdeal.defs _ _).mono (fun _ h c => (h c).2.2) (Cert.ReferenceIdeal.Value.run (F := Ideal) m ρ)

/-- Both programs, run from memories agreeing on the arguments, end with `G` of the arguments as their result. -/
theorem algebraic : Cert.algebraic_KernelIdeal_ReferenceIdeal := by
  intro m ρ m' ρ' _ hagree
  refine ⟨fun c => Cert.Spec.G (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)),
    fun c => Cert.Spec.G (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)),
    kernel_run m ρ, ?_⟩
  refine (θ_run Cert.ReferenceIdeal.defs _ _).mono (fun _ h c => ?_) (Cert.ReferenceIdeal.Value.run (F := Ideal) m' ρ')
  have e : Cert.ReferenceIdeal.Value.res_main_v46 m' c
      = Cert.Spec.G (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) := by
    rw [Cert.ReferenceIdeal.Read.val_main_v46_eq, Cert.RefValue.ref_eq]
    obtain ⟨h0, h1, h2, h3, h4, h5, h6, h7, h8, h9, h10, h11, h12, h13, h14⟩ := hagree c
    rw [h0, h1, h2, h3, h4, h5, h6, h7, h8, h9, h10, h11, h12, h13, h14]
  exact ⟨(h c).1.trans e, (h c).2.1.trans e, (h c).2.2⟩

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
